-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128x1 : Shape := ⟨2, ![128, 1]⟩
abbrev S3x3 : Shape := ⟨2, ![3, 3]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S3x3 : S_.BroadcastsInDim S3x3 (![] : Fin 0 → Fin S3x3.rank)
  reducesTo_S3x3_S_d0_1 : S3x3.ReducesTo [0, 1] S_

variable [Facts]

def fn_part3 {F : FTy → Type} [FloatOps F] (main_v48 : IVec S_ 1) (main_v49 : FVec F S3x3 .f32) (main_v50 : FVec F S3x3 .f32) : IVec S_ 1 :=
  let main_v51 : IVec S3x3 1 := cmpf .olt main_v49 main_v50
  let main_c_19 : IVec S_ 1 := constantI S_ 1 1#1
  let main_v52 : IVec S_ 1 := (fun x v => Host.reduce IntOp.andi x v reducesTo_S3x3_S_d0_1 h_S_) main_v51 main_c_19
  let main_v53 : IVec S_ 1 := andi main_v48 main_v52
  main_v53

def fn_part2 {F : FTy → Type} [FloatOps F] (main_arg9 : FVec F S128x1 .f32) (main_arg10 : FVec F S128x1 .f32) (main_arg11 : FVec F S128x1 .f32) (main_arg12 : FVec F S3x3 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S3x3 .f32 := Host.absf main_arg12
  let main_cst_18 : FVec F S_ .f32 := constant S_ .f32 0x7F800000#32
  let main_v50 : FVec F S3x3 .f32 := broadcastInDim S3x3 ![] bcast_S_S3x3 main_cst_18
  fn_part3 (F := F) main_v48 main_v49 main_v50

def fn_part1 {F : FTy → Type} [FloatOps F] (main_arg6 : FVec F S256x128 .f32) (main_arg7 : FVec F S256x128 .f32) (main_arg8 : FVec F S256x128 .f32) (main_arg9 : FVec F S128x1 .f32) (main_arg10 : FVec F S128x1 .f32) (main_arg11 : FVec F S128x1 .f32) (main_arg12 : FVec F S3x3 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x256 .f32) (main_arg1 : IVec S1600000 32) (main_arg2 : IVec S1600000 32) (main_arg3 : FVec F S1600000 .f32) (main_arg4 : FVec F S1600000 .f32) (main_arg5 : FVec F S1600000 .f32) (main_arg6 : FVec F S256x128 .f32) (main_arg7 : FVec F S256x128 .f32) (main_arg8 : FVec F S256x128 .f32) (main_arg9 : FVec F S128x1 .f32) (main_arg10 : FVec F S128x1 .f32) (main_arg11 : FVec F S128x1 .f32) (main_arg12 : FVec F S3x3 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg6 main_arg7 main_arg8 main_arg9 main_arg10 main_arg11 main_arg12 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128x1 : Shape := ⟨2, ![128, 1]⟩
abbrev S3x3 : Shape := ⟨2, ![3, 3]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S5000x1 : Shape := ⟨2, ![5000, 1]⟩
abbrev S5000x3 : Shape := ⟨2, ![5000, 3]⟩
abbrev S5000 : Shape := ⟨1, ![5000]⟩

abbrev nBuf : Space → Nat
  | .hbm => 49
  | .vmem => 23
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .f32⟩
  | .hbm, ⟨5, _⟩ => ⟨S1600000, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S128x1, .f32⟩
  | .hbm, ⟨10, _⟩ => ⟨S128x1, .f32⟩
  | .hbm, ⟨11, _⟩ => ⟨S128x1, .f32⟩
  | .hbm, ⟨12, _⟩ => ⟨S3x3, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x1, .f32⟩
  | .local _ .vmem, ⟨18, _⟩ => ⟨S128x1, .f32⟩
  | .local _ .vmem, ⟨19, _⟩ => ⟨S128x1, .f32⟩
  | .local _ .vmem, ⟨20, _⟩ => ⟨S3x3, .f32⟩
  | .local _ .vmem, ⟨21, _⟩ => ⟨S5000x128, .f32⟩
  | .local _ .vmem, ⟨22, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  concatenates_S5000x1_S5000x1_S5000x1_S5000x3_d1 : Shape.Concatenates [S5000x1, S5000x1, S5000x1] S5000x3 1
  inb_S3x3_S3x3_0_0 : ∀ a, (![0, 0] : Fin 2 → Nat) a + S3x3.size a ≤ S3x3.size a
  h_S3x3 : 0 < S3x3.numel
  reduces_S5000x3_S5000 : S5000x3.Reduces [1] S5000
  shapeCasts_S5000_S5000x1 : S5000.ShapeCasts S5000x1
  broadcasts_S5000x1_S5000x3 : S5000x1.Broadcasts S5000x3
  slices_S5000x3_o0_0_S5000x1 : S5000x3.Slices ![0, 0] S5000x1
  broadcasts_S5000x1_S5000x128 : S5000x1.Broadcasts S5000x128
  slices_S5000x3_o0_1_S5000x1 : S5000x3.Slices ![0, 1] S5000x1
  slices_S5000x3_o0_2_S5000x1 : S5000x3.Slices ![0, 2] S5000x1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  dot_S5000x3_S3x3_S5000x3_1_0_0_1_n_n_wf : DotDims.WF S5000x3 S3x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x3.size a ≤ S3x3.size a
  hwx1_6 : ∀ i : grid1.Coords, EltTy.bits .f32 = 32 ∨ (Rect.block (s := S3x3) S3x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S5000x3_S3x3_S5000x3_1_0_0_1_n_n : DotDims S5000x3 S3x3 S5000x3 where
  lhsContracting := [1]
  rhsContracting := [0]
  lhsNonContracting := [0]
  rhsNonContracting := [1]
  lhsBatch := []
  rhsBatch := []
  wf := dot_S5000x3_S3x3_S5000x3_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S3x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128x1 : Shape := ⟨2, ![128, 1]⟩
abbrev S3x3 : Shape := ⟨2, ![3, 3]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S100000x1 : Shape := ⟨2, ![100000, 1]⟩
abbrev S100000x3 : Shape := ⟨2, ![100000, 3]⟩
abbrev S100000 : Shape := ⟨1, ![100000]⟩

abbrev nBuf : Space → Nat
  | .hbm => 101
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .f32⟩
  | .hbm, ⟨5, _⟩ => ⟨S1600000, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S128x1, .f32⟩
  | .hbm, ⟨10, _⟩ => ⟨S128x1, .f32⟩
  | .hbm, ⟨11, _⟩ => ⟨S128x1, .f32⟩
  | .hbm, ⟨12, _⟩ => ⟨S3x3, .f32⟩
  | .hbm, ⟨13, _⟩ => ⟨S100000x128, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1600000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x1, .f32⟩
  | .hbm, ⟨59, _⟩ => ⟨S100000x1, .f32⟩
  | .hbm, ⟨60, _⟩ => ⟨S100000x3, .f32⟩
  | .hbm, ⟨61, _⟩ => ⟨S100000x3, .f32⟩
  | .hbm, ⟨62, _⟩ => ⟨S100000x3, .f32⟩
  | .hbm, ⟨63, _⟩ => ⟨S_, .f32⟩
  | .hbm, ⟨64, _⟩ => ⟨S100000x3, .f32⟩
  | .hbm, ⟨65, _⟩ => ⟨S100000x3, .f32⟩
  | .hbm, ⟨66, _⟩ => ⟨S_, .f32⟩
  | .hbm, ⟨67, _⟩ => ⟨S100000x3, .f32⟩
  | .hbm, ⟨68, _⟩ => ⟨S100000x3, .f32⟩
  | .hbm, ⟨69, _⟩ => ⟨S100000x3, .f32⟩
  | .hbm, ⟨70, _⟩ => ⟨S_, .f32⟩
  | .hbm, ⟨71, _⟩ => ⟨S100000x3, .f32⟩
  | .hbm, ⟨72, _⟩ => ⟨S100000x3, .f32⟩
  | .hbm, ⟨73, _⟩ => ⟨S_, .f32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x3, .f32⟩
  | .hbm, ⟨80, _⟩ => ⟨S100000x3, .f32⟩
  | .hbm, ⟨81, _⟩ => ⟨S100000x3, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S100000x3, .f32⟩
  | .hbm, ⟨86, _⟩ => ⟨S100000x3, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x1, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_cst : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_cst : Ref sig .tc := ⟨.hbm, 50, rfl⟩
abbrev main_call1_v0 : Ref sig .tc := ⟨.hbm, 51, rfl⟩
abbrev main_v29 : Ref sig .tc := ⟨.hbm, 52, rfl⟩
abbrev main_v30 : Ref sig .tc := ⟨.hbm, 53, rfl⟩
abbrev main_call2_cst : Ref sig .tc := ⟨.hbm, 54, rfl⟩
abbrev main_call2_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x1_S100000x1_S100000x1_S100000x3_d1 : Shape.Concatenates [S100000x1, S100000x1, S100000x1] S100000x3 1
  bcast_S_S100000x3 : S_.BroadcastsInDim S100000x3 (![] : Fin 0 → Fin S100000x3.rank)
  reducesTo_S100000x3_S100000_d1 : S100000x3.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  slices_S100000x3_S100000x1_0_0 : S100000x3.Slices ![0, 0] S100000x1
  bcast_S100000x1_S100000x128_0_1 : S100000x1.BroadcastsInDim S100000x128 (![0, 1] : Fin 2 → Fin S100000x128.rank)
  slices_S100000x3_S100000x1_0_1 : S100000x3.Slices ![0, 1] S100000x1
  slices_S100000x3_S100000x1_0_2 : S100000x3.Slices ![0, 2] S100000x1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []
  dot_S100000x3_S3x3_S100000x3_1_0_0_1_n_n_wf : DotDims.WF S100000x3 S3x3 S100000x3 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S100000x3_S3x3_S100000x3_1_0_0_1_n_n : DotDims S100000x3 S3x3 S100000x3 where
  lhsContracting := [1]
  rhsContracting := [0]
  lhsNonContracting := [0]
  rhsNonContracting := [1]
  lhsBatch := []
  rhsBatch := []
  wf := dot_S100000x3_S3x3_S100000x3_1_0_0_1_n_n_wf

class Facts : Prop extends Facts₀ where

variable [Facts]
-- ==== Proof.KernelRun.lean ====
/-
  The idealized kernel's run with every buffer it leaves NAMED.

  @main is a first grid of twenty points (the three dense projections), a stretch of host operations (two
  gathers of projected rows by source node, the edge weights multiplied in, two scatter-additions by
  destination node), and a second grid of twenty points (the row mixture). The frame run ends with every
  buffer of the TensorCore that is not a staging buffer at the contents of the last boundary of that
  walk: an array a grid writes holds what the grid's write-backs leave, block by block; a buffer a host
  operation writes holds that operation's value of its operands; everything else is as launched. Here the
  same run is stated with that whole final valuation in its post, so that the result array, and not
  only the arguments, can be read off it.
-/
import proofs.«124424_j79809082294822_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that is not a
    staging buffer ends at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The result array ends at what the second grid's write-backs leave of its output window (window 7),
    and the thirteen arguments end as launched. -/
theorem run_named : θ_run defs (onTc (τ := τ) (main (F := F))) ⟨m, fun _ => 0, ρ⟩ (fun r => ∀ c : Dev nD,
      r.2.mem ((c.tc : Thread nD τ).loc main_v27) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨(h c _ (mem_uc main_v27 (by decide))).trans (W3_arr m ρ c 7),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c)⟩)
    (run_all m ρ)

end Cert.KernelIdeal.RunAll

end
-- ==== Proof.RowMix.lean ====
/-
  The mathematics both programs compute, stated once over the extended reals and over no program.

  A node's output row is a convex-like mixture of three feature rows of width 128 — the low-pass and the
  high-pass aggregate (each already clamped at zero) and the clamped dense projection — with weights
  obtained from the rows themselves: each row is scored against its own attention column (a dot product
  over the 128 features), the three scores go through the logistic function, are mixed by a 3 × 3 matrix
  and divided by three, and a softmax over the three mixed values (shifted by their maximum) gives the
  three weights. The output entry at feature `j` is three times the weighted sum of the three rows' entries
  at `j`. Every operation is written in the order both programs perform it, so that each side meets this
  text by rewriting alone: no law of arithmetic is used, hence no finiteness either.

  Also here: a dense projection `X · W` of a 100000 × 256 array by a 256 × 128 matrix, entry by entry a sum
  over the 256 contracted coordinates.
-/
import Idealize.ShloMosaic.PureOps.Ideal
import Idealize.ShloMosaic.PureOps.Ideal.Laws
import Idealize.ShloMosaic.Lib.ValueIdx

noncomputable section

open scoped BigOperators

namespace Cert.RowMix

open Idealize.ShloMosaic Idealize.ShloMosaic.ValueIdx

/-- The three float words the two programs share, kept as words: zero, three, and minus infinity. -/
abbrev zero : EReal := Ideal.ofBits .f32 0x00000000#32
abbrev three : EReal := Ideal.ofBits .f32 0x40400000#32
abbrev ninf : EReal := Ideal.ofBits .f32 0xFF800000#32

/-- Clamping at zero. -/
def relu (x : EReal) : EReal := max x zero

/-- A feature row against an attention column: the dot product over the 128 features. -/
def score (h a : Fin 128 → EReal) : EReal := ∑ d : Fin 128, h d * a d

/-- The three rows' scores, in the order low, high, dense. -/
def scores (hl hh hm al ah am : Fin 128 → EReal) : Fin 3 → EReal := fun l =>
  match l with
  | ⟨0, _⟩ => score hl al
  | ⟨1, _⟩ => score hh ah
  | ⟨2, _⟩ => score hm am

/-- The logistic of the scores mixed by the 3 × 3 matrix, divided by three. -/
def mixed (s : Fin 3 → EReal) (av : Fin 3 → Fin 3 → EReal) (k : Fin 3) : EReal :=
  Ideal.div (∑ l : Fin 3, Ideal.logistic (s l) * av l k) three

/-- The largest of three values, folded from minus infinity, and once more against minus infinity. -/
def top (x : Fin 3 → EReal) : EReal := max ninf ((Finset.univ : Finset (Fin 3)).fold max ninf x)

/-- The exponential of a value shifted by the largest. -/
def expo (x : Fin 3 → EReal) (k : Fin 3) : EReal := Ideal.exp (x k - top x)

/-- The softmax weight: a shifted exponential over the sum of the three. -/
def weight (x : Fin 3 → EReal) (k : Fin 3) : EReal := Ideal.div (expo x k) (∑ k' : Fin 3, expo x k')

/-- One output entry: three times the weighted sum of the three rows' entries at feature `j`. -/
def out (hl hh hm al ah am : Fin 128 → EReal) (av : Fin 3 → Fin 3 → EReal) (j : Fin 128) : EReal :=
  three * ((weight (mixed (scores hl hh hm al ah am) av) 0 * hl j
            + weight (mixed (scores hl hh hm al ah am) av) 1 * hh j)
           + weight (mixed (scores hl hh hm al ah am) av) 2 * hm j)

/-- The output array from the three feature arrays (the first two already clamped), the three attention
    columns and the mixing matrix, at node `r` and feature `j`. -/
def G (A B C : (⟨2, ![100000, 128]⟩ : Shape).Idx → EReal) (al ah am : (⟨2, ![128, 1]⟩ : Shape).Idx → EReal)
    (av : (⟨2, ![3, 3]⟩ : Shape).Idx → EReal) (r : Fin 100000) (j : Fin 128) : EReal :=
  out (fun d => A (ix2 r d)) (fun d => B (ix2 r d)) (fun d => C (ix2 r d))
    (fun d => al (ix2 d (0 : Fin 1))) (fun d => ah (ix2 d (0 : Fin 1))) (fun d => am (ix2 d (0 : Fin 1)))
    (fun l k => av (ix2 l k)) j

/-- The same as an array over the index type. -/
def GA (A B C : (⟨2, ![100000, 128]⟩ : Shape).Idx → EReal) (al ah am : (⟨2, ![128, 1]⟩ : Shape).Idx → EReal)
    (av : (⟨2, ![3, 3]⟩ : Shape).Idx → EReal) : (⟨2, ![100000, 128]⟩ : Shape).Idx → EReal :=
  fun i => G A B C al ah am av ⟨(i 0).val, idx2_lt0 i⟩ ⟨(i 1).val, idx2_lt1 i⟩

theorem GA_ix2 (A B C : (⟨2, ![100000, 128]⟩ : Shape).Idx → EReal) (al ah am : (⟨2, ![128, 1]⟩ : Shape).Idx → EReal)
    (av : (⟨2, ![3, 3]⟩ : Shape).Idx → EReal) (r : Fin 100000) (j : Fin 128) :
    GA A B C al ah am av (ix2 r j) = G A B C al ah am av r j := rfl

/-- The dense projection at node `r` and feature `c`: the sum over the 256 input features. -/
def P (X : (⟨2, ![100000, 256]⟩ : Shape).Idx → EReal) (W : (⟨2, ![256, 128]⟩ : Shape).Idx → EReal)
    (r : Fin 100000) (c : Fin 128) : EReal :=
  ∑ k : Fin 256, X (ix2 r k) * W (ix2 k c)

/-- The same as an array over the index type. -/
def PA (X : (⟨2, ![100000, 256]⟩ : Shape).Idx → EReal) (W : (⟨2, ![256, 128]⟩ : Shape).Idx → EReal) :
    (⟨2, ![100000, 128]⟩ : Shape).Idx → EReal :=
  fun i => P X W ⟨(i 0).val, idx2_lt0 i⟩ ⟨(i 1).val, idx2_lt1 i⟩

theorem PA_ix2 (X : (⟨2, ![100000, 256]⟩ : Shape).Idx → EReal) (W : (⟨2, ![256, 128]⟩ : Shape).Idx → EReal)
    (r : Fin 100000) (c : Fin 128) : PA X W (ix2 r c) = P X W r c := rfl

/-- An array clamped at zero, entry by entry. -/
def reluA {S : Shape} (A : S.Idx → EReal) : S.Idx → EReal := fun i => relu (A i)

end Cert.RowMix

end
-- ==== Proof.Aggregate.lean ====
/-
  The two functions both programs are compared through.

  `agg`: the sparse aggregation between the dense stages — for every edge, the projected feature row of its
  source node times the edge's weight, added into the row of its destination node, starting from zero. It
  is the very chain of host operations that both programs apply (to the first grid's output in one, to a
  host matrix product in the other), kept as ONE opaque function of the array it is applied to: nothing in
  the proof looks inside a gather or a scatter-addition over the 1.6 million edges.

  `whole`: the result as a function of the twelve argument arrays — the row mixture of the clamped low-pass
  aggregate, the clamped high-pass aggregate and the clamped dense projection.
-/
import proofs.«124424_j79809082294822_1_alg».proof.KernelIdeal
import proofs.«124424_j79809082294822_1_alg».proof.Proof.Gen.KernelIdeal
import proofs.«124424_j79809082294822_1_alg».proof.Proof.RowMix

noncomputable section

namespace Cert.KernelIdeal.Bridge

open Cert.KernelIdeal Cert.KernelIdeal.Facts₀ Idealize.ShloMosaic
open Cert.RowMix (PA GA reluA)

/-- The aggregation between the two grids, as one function of a projected feature array `h`, the edges'
    source and destination nodes and the edges' weights: the row of `h` at each edge's source (a negative
    source counted from the end), multiplied by the edge's weight, added into the row of its destination,
    from zero. Both programs apply this very chain of host operations; it is never opened. -/
def agg (h : FVec Ideal S100000x128 .f32) (src dst : IVec S1600000 32)
    (w : FVec Ideal S1600000 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal) (broadcastInDim S1600000x128 ![0, 1] bcast_S1600000x1_S1600000x128_0_1 (broadcastInDim S1600000x1 ![0] bcast_S1600000_S1600000x1_0 w))
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

/-- The whole computation as one function of the twelve argument arrays it reads: the mixture of the
    clamped low-pass aggregate, the clamped high-pass aggregate and the clamped dense projection. -/
def whole (x0 : FVec Ideal S100000x256 .f32) (x1 x2 : IVec S1600000 32) (x3 x4 : FVec Ideal S1600000 .f32)
    (x6 x7 x8 : FVec Ideal S256x128 .f32) (x9 x10 x11 : FVec Ideal S128x1 .f32) (x12 : FVec Ideal S3x3 .f32) :
    FVec Ideal S100000x128 .f32 :=
  GA (reluA (agg (PA x0 x6) x1 x2 x3)) (reluA (agg (PA x0 x7) x1 x2 x4)) (reluA (PA x0 x8)) x9 x10 x11 x12

end Cert.KernelIdeal.Bridge

end
-- ==== Proof.ProjValue.lean ====
/-
  The first grid's three output arrays, each as one function of the arrays the grid finds on entry.

  The grid has 20 points. At point `t` the body reads rows `5000 t … 5000 t + 4999` of the 100000 × 256 input and the
  three whole 256 × 128 weight matrices, and writes rows `5000 t … 5000 t + 4999` of three 100000 × 128 outputs: the block
  of input rows times the first matrix, times the second, and times the third clamped at zero. An entry of a block
  product into a zero accumulator is the sum over the 256 contracted coordinates of the products of the row's and the
  column's entries, and on the extended reals a change of float format changes nothing, so entry `(p, j)` of what point
  `t` writes is entry `(5000 t + p, j)` of the whole-array projection `X · W`. Row `r` lies in the block of point
  `r / 5000`, so the 20 blocks cover each output, which therefore ends holding the projection everywhere.
-/
import proofs.«124424_j79809082294822_1_alg».proof.Proof.Gen.KernelIdeal.Frame
import proofs.«124424_j79809082294822_1_alg».proof.Proof.RowMix
import Idealize.ShloMosaic.Lib.Pipeline.Value
import Idealize.ShloMosaic.Lib.ValueIdx
import Idealize.ShloMosaic.PureOps.Ideal.Laws

noncomputable section

open scoped BigOperators

namespace Cert.KernelIdeal.ProjValue

open Cert.KernelIdeal Cert.KernelIdeal.Gen Idealize.ShloMosaic Idealize.ShloMosaic.TcCoe Idealize.SL.Sem Idealize.ShloMosaic.ValueIdx
open Idealize.ShloMosaic.Pipeline (Dat Cfg Window)

/-- The zero offsets of a whole-block access, as a constant function. -/
theorem zeros : (![0, 0] : Fin 2 → Nat) = fun _ => 0 := funext fun a => by fin_cases a <;> rfl

/-- In a block product of a 5000 × 256 block by a 256 × 128 matrix, the left factor of entry `i`'s `q`-th product sits in
    row `i 0`. -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- … and in column `q`. -/
theorem lhs_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right factor sits in row `q` -/
theorem rhs_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- … and in column `i 1`. -/
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A block product into a zero accumulator, entry by entry: the sum over the 256 contracted coordinates. -/
theorem product_apply (a : FVec Ideal S5000x256 .bf16) (b : FVec Ideal S256x128 .bf16) (p : Fin 5000) (j : Fin 128) :
    matmul dot_S5000x256_S256x128_S5000x128_1_0_0_1_n_n none a b (constant (F := Ideal) S5000x128 .f32 0x00000000#32) (ix2 p j)
      = ∑ k : Fin 256, a (ix2 p k) * b (ix2 k j) := by
  show FloatOps.matmul dot_S5000x256_S256x128_S5000x128_1_0_0_1_n_n none a b (constant (F := Ideal) S5000x128 .f32 0x00000000#32) (ix2 p j) = _
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p j) ((ValueIdx.contrEquiv1 dot_S5000x256_S256x128_S5000x128_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x128_S5000x128_1_0_0_1_n_n.rhsIdx (ix2 p j) ((ValueIdx.contrEquiv1 dot_S5000x256_S256x128_S5000x128_1_0_0_1_n_n 256 rfl rfl).symm k) = ix2 k j := funext fun a => Fin.ext (by
    match a with
    | ⟨0, _⟩ => exact (rhs_row _ _).trans hk
    | ⟨1, _⟩ => exact rhs_col _ _)
  rw [el, er]

/-- The first output block at an entry: row `p` of the input block against column `j` of the first weight matrix
    (the change of float format is the identity on the extended reals). -/
theorem out0_4_apply (x0 : Vec Ideal S5000x256 .f32) (x1 x2 x3 : Vec Ideal S256x128 .f32) (p : Fin 5000) (j : Fin 128) :
    out0_4 (F := Ideal) x0 x1 x2 x3 (ix2 p j) = ∑ k : Fin 256, x0 (ix2 p k) * x1 (ix2 k j) := by
  unfold out0_4
  rw [View.canon_unit_zero zeros]
  simp only [View.ld_unit_zero (S := S5000x256) zeros, View.ld_unit_zero (S := S256x128) zeros]
  unfold k0_pay2 k0_pay1
  exact product_apply _ _ p j

/-- The second, against the second weight matrix. -/
theorem out0_5_apply (x0 : Vec Ideal S5000x256 .f32) (x1 x2 x3 : Vec Ideal S256x128 .f32) (p : Fin 5000) (j : Fin 128) :
    out0_5 (F := Ideal) x0 x1 x2 x3 (ix2 p j) = ∑ k : Fin 256, x0 (ix2 p k) * x2 (ix2 k j) := by
  unfold out0_5
  rw [View.canon_unit_zero zeros]
  simp only [View.ld_unit_zero (S := S5000x256) zeros, View.ld_unit_zero (S := S256x128) zeros]
  unfold k0_pay3 k0_pay1
  exact product_apply _ _ p j

/-- The third, against the third weight matrix, clamped at zero. -/
theorem out0_6_apply (x0 : Vec Ideal S5000x256 .f32) (x1 x2 x3 : Vec Ideal S256x128 .f32) (p : Fin 5000) (j : Fin 128) :
    out0_6 (F := Ideal) x0 x1 x2 x3 (ix2 p j) = Cert.RowMix.relu (∑ k : Fin 256, x0 (ix2 p k) * x3 (ix2 k j)) := by
  unfold out0_6
  rw [View.canon_unit_zero zeros]
  simp only [View.ld_unit_zero (S := S5000x256) zeros, View.ld_unit_zero (S := S256x128) zeros]
  unfold k0_pay4 k0_pay1
  show max (matmul dot_S5000x256_S256x128_S5000x128_1_0_0_1_n_n none _ _ (constant (F := Ideal) S5000x128 .f32 0x00000000#32) (ix2 p j)) _ = _
  rw [product_apply]
  rfl

variable (V : (c : Dev nD) → (b : Ref sig .tc) → Buf (Elt Ideal) ((c : Thread nD τ).loc b)) (c : Dev nD)

/-- Where the first grid's index maps put each window's block: the row blocks of the input and of the three outputs
    at the point's number, every other block coordinate zero (decided over the 20 points). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A point's number is below 20. -/
theorem t_lt (t : Fin cfg0.N) : t.val < 20 := t.isLt

/-- The input block at point `t` holds rows `5000 t … 5000 t + 4999` of the input array. -/
theorem iblk0_x (t : Fin cfg0.N) (p : Fin 5000) (k : Fin 256) (r : Fin 100000) (hr : r.val = t.val * 5000 + p.val) :
    (iblk0 V c 0 t : Vec Ideal S5000x256 .f32) (ix2 p k) = (V c (Pipeline.arrRef spec0 0) : S100000x256.Idx → EReal) (ix2 r k) := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t 0 * 5000 + 1 * p.val = r.val; rw [e0, hr]; omega
  | ⟨1, _⟩ => show win0_0.index t 1 * 256 + 1 * k.val = k.val; rw [e1]; omega

/-- A weight window's one block is the whole weight matrix, at every point. -/
theorem iblk0_w1 (t : Fin cfg0.N) (k : Fin 256) (j : Fin 128) :
    (iblk0 V c 1 t : Vec Ideal S256x128 .f32) (ix2 k j) = (V c (Pipeline.arrRef spec0 1) : S256x128.Idx → EReal) (ix2 k j) := by
  obtain ⟨-, -, e0, e1, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t 0 * 256 + 1 * k.val = k.val; rw [e0]; omega
  | ⟨1, _⟩ => show win0_1.index t 1 * 128 + 1 * j.val = j.val; rw [e1]; omega

theorem iblk0_w2 (t : Fin cfg0.N) (k : Fin 256) (j : Fin 128) :
    (iblk0 V c 2 t : Vec Ideal S256x128 .f32) (ix2 k j) = (V c (Pipeline.arrRef spec0 2) : S256x128.Idx → EReal) (ix2 k j) := by
  obtain ⟨-, -, -, -, e0, e1, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t 0 * 256 + 1 * k.val = k.val; rw [e0]; omega
  | ⟨1, _⟩ => show win0_2.index t 1 * 128 + 1 * j.val = j.val; rw [e1]; omega

theorem iblk0_w3 (t : Fin cfg0.N) (k : Fin 256) (j : Fin 128) :
    (iblk0 V c 3 t : Vec Ideal S256x128 .f32) (ix2 k j) = (V c (Pipeline.arrRef spec0 3) : S256x128.Idx → EReal) (ix2 k j) := by
  obtain ⟨-, -, -, -, -, -, e0, e1, -⟩ := idx_facts0 t
  unfold iblk0
  rw [View.read_apply]
  show V c (Pipeline.arrRef spec0 3) _ = V c (Pipeline.arrRef spec0 3) _
  congr 1
  funext a
  apply Fin.ext
  match a with
  | ⟨0, _⟩ => show win0_3.index t 0 * 256 + 1 * k.val = k.val; rw [e0]; omega
  | ⟨1, _⟩ => show win0_3.index t 1 * 128 + 1 * j.val = j.val; rw [e1]; omega

/-- Entry `(p, q)` of an output window's block at point `t` is entry `(5000 t + p, q)` of its array. -/
theorem emb4 (t : Fin cfg0.N) (p : Fin 5000) (q : Fin 128) (r : Fin 100000) (hr : r.val = t.val * 5000 + p.val) :
    ((cfg0.win 4).blk t).view.emb (ix2 p q) = (ix2 r q : S100000x128.Idx) := by
  obtain ⟨-, -, -, -, -, -, -, -, e0, e1, -⟩ := idx_facts0 t
  funext a
  apply Fin.ext
  match a with
  | ⟨0, _⟩ => show win0_4.index t 0 * 5000 + 1 * p.val = r.val; rw [e0, hr]; omega
  | ⟨1, _⟩ => show win0_4.index t 1 * 128 + 1 * q.val = q.val; rw [e1]; omega

/-- What point `t` writes back to the first output is block `t` of the projection by the first weight matrix. -/
theorem flushed4_eq (t : Fin cfg0.N) :
    (dat0 (F := Ideal) V c).flushed 4 t = ((cfg0.win 4).blk t).view.read (Elt Ideal)
      (Cert.RowMix.PA (V c (Pipeline.arrRef spec0 0)) (V c (Pipeline.arrRef spec0 1))) := by
  show (cfg0.win 4).cut (grid0.coords t) ((dat0 V c).after 4 t) = _
  rw [after0_4]
  funext y
  show out0_4 (iblk0 V c 0 t) (iblk0 V c 1 t) (iblk0 V c 2 t) (iblk0 V c 3 t) y
    = Cert.RowMix.PA (V c (Pipeline.arrRef spec0 0)) (V c (Pipeline.arrRef spec0 1)) (((cfg0.win 4).blk t).view.emb y)
  obtain ⟨p, q, rfl⟩ : ∃ (p : Fin 5000) (q : Fin 128), y = ix2 p q := ⟨y 0, y 1, eq_ix2 y⟩
  have hr : t.val * 5000 + p.val < 100000 := by have := t_lt t; omega
  rw [emb4 t p q ⟨_, hr⟩ rfl, Cert.RowMix.PA_ix2]
  refine (out0_4_apply (iblk0 V c 0 t) (iblk0 V c 1 t) (iblk0 V c 2 t) (iblk0 V c 3 t) p q).trans ?_
  refine Finset.sum_congr rfl fun k _ => ?_
  rw [iblk0_x V c t p k ⟨_, hr⟩ rfl, iblk0_w1 V c t k q]

theorem emb5 (t : Fin cfg0.N) (p : Fin 5000) (q : Fin 128) (r : Fin 100000) (hr : r.val = t.val * 5000 + p.val) :
    ((cfg0.win 5).blk t).view.emb (ix2 p q) = (ix2 r q : S100000x128.Idx) := by
  obtain ⟨-, -, -, -, -, -, -, -, -, -, e0, e1, -⟩ := idx_facts0 t
  funext a
  apply Fin.ext
  match a with
  | ⟨0, _⟩ => show win0_5.index t 0 * 5000 + 1 * p.val = r.val; rw [e0, hr]; omega
  | ⟨1, _⟩ => show win0_5.index t 1 * 128 + 1 * q.val = q.val; rw [e1]; omega

theorem emb6 (t : Fin cfg0.N) (p : Fin 5000) (q : Fin 128) (r : Fin 100000) (hr : r.val = t.val * 5000 + p.val) :
    ((cfg0.win 6).blk t).view.emb (ix2 p q) = (ix2 r q : S100000x128.Idx) := by
  obtain ⟨-, -, -, -, -, -, -, -, -, -, -, -, e0, e1⟩ := idx_facts0 t
  funext a
  apply Fin.ext
  match a with
  | ⟨0, _⟩ => show win0_6.index t 0 * 5000 + 1 * p.val = r.val; rw [e0, hr]; omega
  | ⟨1, _⟩ => show win0_6.index t 1 * 128 + 1 * q.val = q.val; rw [e1]; omega

/-- What point `t` writes back to the second output is block `t` of the projection by the second weight matrix. -/
theorem flushed5_eq (t : Fin cfg0.N) :
    (dat0 (F := Ideal) V c).flushed 5 t = ((cfg0.win 5).blk t).view.read (Elt Ideal)
      (Cert.RowMix.PA (V c (Pipeline.arrRef spec0 0)) (V c (Pipeline.arrRef spec0 2))) := by
  show (cfg0.win 5).cut (grid0.coords t) ((dat0 V c).after 5 t) = _
  rw [after0_5]
  funext y
  show out0_5 (iblk0 V c 0 t) (iblk0 V c 1 t) (iblk0 V c 2 t) (iblk0 V c 3 t) y
    = Cert.RowMix.PA (V c (Pipeline.arrRef spec0 0)) (V c (Pipeline.arrRef spec0 2)) (((cfg0.win 5).blk t).view.emb y)
  obtain ⟨p, q, rfl⟩ : ∃ (p : Fin 5000) (q : Fin 128), y = ix2 p q := ⟨y 0, y 1, eq_ix2 y⟩
  have hr : t.val * 5000 + p.val < 100000 := by have := t_lt t; omega
  rw [emb5 t p q ⟨_, hr⟩ rfl, Cert.RowMix.PA_ix2]
  refine (out0_5_apply (iblk0 V c 0 t) (iblk0 V c 1 t) (iblk0 V c 2 t) (iblk0 V c 3 t) p q).trans ?_
  refine Finset.sum_congr rfl fun k _ => ?_
  rw [iblk0_x V c t p k ⟨_, hr⟩ rfl, iblk0_w2 V c t k q]

/-- What point `t` writes back to the third output is block `t` of the clamped projection by the third weight matrix. -/
theorem flushed6_eq (t : Fin cfg0.N) :
    (dat0 (F := Ideal) V c).flushed 6 t = ((cfg0.win 6).blk t).view.read (Elt Ideal)
      (Cert.RowMix.reluA (Cert.RowMix.PA (V c (Pipeline.arrRef spec0 0)) (V c (Pipeline.arrRef spec0 3)))) := by
  show (cfg0.win 6).cut (grid0.coords t) ((dat0 V c).after 6 t) = _
  rw [after0_6]
  funext y
  show out0_6 (iblk0 V c 0 t) (iblk0 V c 1 t) (iblk0 V c 2 t) (iblk0 V c 3 t) y
    = Cert.RowMix.reluA (Cert.RowMix.PA (V c (Pipeline.arrRef spec0 0)) (V c (Pipeline.arrRef spec0 3))) (((cfg0.win 6).blk t).view.emb y)
  obtain ⟨p, q, rfl⟩ : ∃ (p : Fin 5000) (q : Fin 128), y = ix2 p q := ⟨y 0, y 1, eq_ix2 y⟩
  have hr : t.val * 5000 + p.val < 100000 := by have := t_lt t; omega
  rw [emb6 t p q ⟨_, hr⟩ rfl]
  unfold Cert.RowMix.reluA
  rw [Cert.RowMix.PA_ix2]
  refine (out0_6_apply (iblk0 V c 0 t) (iblk0 V c 1 t) (iblk0 V c 2 t) (iblk0 V c 3 t) p q).trans ?_
  refine congrArg Cert.RowMix.relu (Finset.sum_congr rfl fun k _ => ?_)
  rw [iblk0_x V c t p k ⟨_, hr⟩ rfl, iblk0_w3 V c t k q]

/-- An entry of an output array is in point `t`'s block iff each coordinate is in the block's range on its axis. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v0_0).slice (win0_4.rect t)).set ↔ _
  rw [View.set_slice_whole, Rect.mem_set_unit]
  exact Iff.rfl

theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v0_1).slice (win0_5.rect t)).set ↔ _
  rw [View.set_slice_whole, Rect.mem_set_unit]
  exact Iff.rfl

theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v0_2).slice (win0_6.rect t)).set ↔ _
  rw [View.set_slice_whole, Rect.mem_set_unit]
  exact Iff.rfl

/-- Row `r` of an output array is written by point `r / 5000`: the 20 row blocks tile the 100000 rows. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have ht : (i 0).val / 5000 < cfg0.N := by show (i 0).val / 5000 < 20; omega
  obtain ⟨-, -, -, -, -, -, -, -, e0, e1, -⟩ := idx_facts0 ⟨(i 0).val / 5000, ht⟩
  refine ⟨⟨(i 0).val / 5000, ht⟩, flush0_4 _, ?_⟩
  rw [mem_blk4]
  intro a
  match a with
  | ⟨0, _⟩ => show win0_4.index ⟨(i 0).val / 5000, ht⟩ (0 : Fin 2) * 5000 ≤ (i 0).val ∧ (i 0).val < win0_4.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win0_4.index ⟨(i 0).val / 5000, ht⟩ (1 : Fin 2) * 128 ≤ (i 1).val ∧ (i 1).val < win0_4.index ⟨(i 0).val / 5000, ht⟩ (1 : Fin 2) * 128 + 128; rw [e1]; omega

theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := by show (i 0).val / 5000 < 20; omega
  obtain ⟨-, -, -, -, -, -, -, -, -, -, e0, e1, -⟩ := idx_facts0 ⟨(i 0).val / 5000, ht⟩
  refine ⟨⟨(i 0).val / 5000, ht⟩, flush0_5 _, ?_⟩
  rw [mem_blk5]
  intro a
  match a with
  | ⟨0, _⟩ => show win0_5.index ⟨(i 0).val / 5000, ht⟩ (0 : Fin 2) * 5000 ≤ (i 0).val ∧ (i 0).val < win0_5.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win0_5.index ⟨(i 0).val / 5000, ht⟩ (1 : Fin 2) * 128 ≤ (i 1).val ∧ (i 1).val < win0_5.index ⟨(i 0).val / 5000, ht⟩ (1 : Fin 2) * 128 + 128; rw [e1]; omega

theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < cfg0.N := by show (i 0).val / 5000 < 20; omega
  obtain ⟨-, -, -, -, -, -, -, -, -, -, -, -, e0, e1⟩ := idx_facts0 ⟨(i 0).val / 5000, ht⟩
  refine ⟨⟨(i 0).val / 5000, ht⟩, flush0_6 _, ?_⟩
  rw [mem_blk6]
  intro a
  match a with
  | ⟨0, _⟩ => show win0_6.index ⟨(i 0).val / 5000, ht⟩ (0 : Fin 2) * 5000 ≤ (i 0).val ∧ (i 0).val < win0_6.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win0_6.index ⟨(i 0).val / 5000, ht⟩ (1 : Fin 2) * 128 ≤ (i 1).val ∧ (i 1).val < win0_6.index ⟨(i 0).val / 5000, ht⟩ (1 : Fin 2) * 128 + 128; rw [e1]; omega

/-- After the first grid the first output array holds the projection of the input by the first weight matrix, -/
theorem final4 : (Gen.dat0 (F := Ideal) V c).arrAt 4 cfg0.N = Cert.RowMix.PA (V c (Pipeline.arrRef spec0 0)) (V c (Pipeline.arrRef spec0 1)) :=
  (dat0 (F := Ideal) V c).arrAt_eq_of_cover 4 (Cert.RowMix.PA (V c (Pipeline.arrRef spec0 0)) (V c (Pipeline.arrRef spec0 1)))
    (fun t _ => flushed4_eq V c t) cover4

/-- the second the projection by the second, -/
theorem final5 : (Gen.dat0 (F := Ideal) V c).arrAt 5 cfg0.N = Cert.RowMix.PA (V c (Pipeline.arrRef spec0 0)) (V c (Pipeline.arrRef spec0 2)) :=
  (dat0 (F := Ideal) V c).arrAt_eq_of_cover 5 (Cert.RowMix.PA (V c (Pipeline.arrRef spec0 0)) (V c (Pipeline.arrRef spec0 2)))
    (fun t _ => flushed5_eq V c t) cover5

/-- and the third the projection by the third, clamped at zero. -/
theorem final6 : (Gen.dat0 (F := Ideal) V c).arrAt 6 cfg0.N = Cert.RowMix.reluA (Cert.RowMix.PA (V c (Pipeline.arrRef spec0 0)) (V c (Pipeline.arrRef spec0 3))) :=
  (dat0 (F := Ideal) V c).arrAt_eq_of_cover 6 (Cert.RowMix.reluA (Cert.RowMix.PA (V c (Pipeline.arrRef spec0 0)) (V c (Pipeline.arrRef spec0 3))))
    (fun t _ => flushed6_eq V c t) cover6

end Cert.KernelIdeal.ProjValue

end
-- ==== Proof.MixValue.lean ====
/-
  The second grid's output array as one function of the arrays the grid finds on entry, given what its body computes
  on one block.

  The grid has 20 points. At point `t` the body reads rows `5000 t … 5000 t + 4999` of three 100000 × 128 feature arrays,
  the three whole 128 × 1 attention columns and the whole 3 × 3 mixing matrix, and writes rows `5000 t … 5000 t + 4999` of
  the 100000 × 128 output. The body works row by row: entry `(p, j)` of what it writes depends only on row `p` of the
  three feature blocks, on the columns and on the matrix (this is the hypothesis `hpay`, proved elsewhere). Row `p` of a
  block at point `t` is row `5000 t + p` of its array, so what point `t` writes is block `t` of the whole-array
  function; row `r` lies in the block of point `r / 5000`, so the 20 blocks cover the output.
-/
import proofs.«124424_j79809082294822_1_alg».proof.Proof.Gen.KernelIdeal.Frame
import proofs.«124424_j79809082294822_1_alg».proof.Proof.RowMix
import Idealize.ShloMosaic.Lib.Pipeline.Value
import Idealize.ShloMosaic.Lib.ValueIdx

noncomputable section

open scoped BigOperators

namespace Cert.KernelIdeal.MixValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b)) (c : Dev nD)

/-- A point's number is below 20. -/
theorem t_lt (t : Fin cfg1.N) : t.val < 20 := t.isLt

/-! Where the second grid's index maps put each window's block (decided over the 20 points): a feature array's and the
    output's row block at the point's number, every other block coordinate zero. -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)

/-- A feature block at point `t` holds rows `5000 t … 5000 t + 4999` of its array: the first, -/
theorem iblk1_a0 (t : Fin cfg1.N) (p : Fin 5000) (d : Fin 128) (r : Fin 100000) (hr : r.val = t.val * 5000 + p.val) :
    (iblk1 V c 0 t : Vec Ideal S5000x128 .f32) (ix2 p d) = (V c (Pipeline.arrRef spec1 0) : S100000x128.Idx → EReal) (ix2 r d) := by
  obtain ⟨e0, e1⟩ := idx1_0 t
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * p.val = r.val; rw [e0, hr]; omega
  | ⟨1, _⟩ => show win1_0.index t 1 * 128 + 1 * d.val = d.val; rw [e1]; omega

/-- the second, -/
theorem iblk1_a1 (t : Fin cfg1.N) (p : Fin 5000) (d : Fin 128) (r : Fin 100000) (hr : r.val = t.val * 5000 + p.val) :
    (iblk1 V c 1 t : Vec Ideal S5000x128 .f32) (ix2 p d) = (V c (Pipeline.arrRef spec1 1) : S100000x128.Idx → EReal) (ix2 r d) := by
  obtain ⟨e0, e1⟩ := idx1_1 t
  unfold iblk1
  rw [View.read_apply]
  show V c (Pipeline.arrRef spec1 1) _ = V c (Pipeline.arrRef spec1 1) _
  congr 1
  funext a
  apply Fin.ext
  match a with
  | ⟨0, _⟩ => show win1_1.index t 0 * 5000 + 1 * p.val = r.val; rw [e0, hr]; omega
  | ⟨1, _⟩ => show win1_1.index t 1 * 128 + 1 * d.val = d.val; rw [e1]; omega

/-- and the third. -/
theorem iblk1_a2 (t : Fin cfg1.N) (p : Fin 5000) (d : Fin 128) (r : Fin 100000) (hr : r.val = t.val * 5000 + p.val) :
    (iblk1 V c 2 t : Vec Ideal S5000x128 .f32) (ix2 p d) = (V c (Pipeline.arrRef spec1 2) : S100000x128.Idx → EReal) (ix2 r d) := by
  obtain ⟨e0, e1⟩ := idx1_2 t
  unfold iblk1
  rw [View.read_apply]
  show V c (Pipeline.arrRef spec1 2) _ = V c (Pipeline.arrRef spec1 2) _
  congr 1
  funext a
  apply Fin.ext
  match a with
  | ⟨0, _⟩ => show win1_2.index t 0 * 5000 + 1 * p.val = r.val; rw [e0, hr]; omega
  | ⟨1, _⟩ => show win1_2.index t 1 * 128 + 1 * d.val = d.val; rw [e1]; omega

/-- An attention column's one block is the whole column, at every point: the first, -/
theorem iblk1_c3 (t : Fin cfg1.N) (d : Fin 128) (z : Fin 1) :
    (iblk1 V c 3 t : Vec Ideal S128x1 .f32) (ix2 d z) = (V c (Pipeline.arrRef spec1 3) : S128x1.Idx → EReal) (ix2 d z) := by
  obtain ⟨e0, e1⟩ := idx1_3 t
  unfold iblk1
  rw [View.read_apply]
  show V c (Pipeline.arrRef spec1 3) _ = V c (Pipeline.arrRef spec1 3) _
  congr 1
  funext a
  apply Fin.ext
  match a with
  | ⟨0, _⟩ => show win1_3.index t 0 * 128 + 1 * d.val = d.val; rw [e0]; omega
  | ⟨1, _⟩ => show win1_3.index t 1 * 1 + 1 * z.val = z.val; rw [e1]; omega

/-- the second, -/
theorem iblk1_c4 (t : Fin cfg1.N) (d : Fin 128) (z : Fin 1) :
    (iblk1 V c 4 t : Vec Ideal S128x1 .f32) (ix2 d z) = (V c (Pipeline.arrRef spec1 4) : S128x1.Idx → EReal) (ix2 d z) := by
  obtain ⟨e0, e1⟩ := idx1_4 t
  unfold iblk1
  rw [View.read_apply]
  show V c (Pipeline.arrRef spec1 4) _ = V c (Pipeline.arrRef spec1 4) _
  congr 1
  funext a
  apply Fin.ext
  match a with
  | ⟨0, _⟩ => show win1_4.index t 0 * 128 + 1 * d.val = d.val; rw [e0]; omega
  | ⟨1, _⟩ => show win1_4.index t 1 * 1 + 1 * z.val = z.val; rw [e1]; omega

/-- and the third. -/
theorem iblk1_c5 (t : Fin cfg1.N) (d : Fin 128) (z : Fin 1) :
    (iblk1 V c 5 t : Vec Ideal S128x1 .f32) (ix2 d z) = (V c (Pipeline.arrRef spec1 5) : S128x1.Idx → EReal) (ix2 d z) := by
  obtain ⟨e0, e1⟩ := idx1_5 t
  unfold iblk1
  rw [View.read_apply]
  show V c (Pipeline.arrRef spec1 5) _ = V c (Pipeline.arrRef spec1 5) _
  congr 1
  funext a
  apply Fin.ext
  match a with
  | ⟨0, _⟩ => show win1_5.index t 0 * 128 + 1 * d.val = d.val; rw [e0]; omega
  | ⟨1, _⟩ => show win1_5.index t 1 * 1 + 1 * z.val = z.val; rw [e1]; omega

/-- The mixing matrix's one block is the whole matrix, at every point. -/
theorem iblk1_m6 (t : Fin cfg1.N) (l k : Fin 3) :
    (iblk1 V c 6 t : Vec Ideal S3x3 .f32) (ix2 l k) = (V c (Pipeline.arrRef spec1 6) : S3x3.Idx → EReal) (ix2 l k) := by
  obtain ⟨e0, e1⟩ := idx1_6 t
  unfold iblk1
  rw [View.read_apply]
  show V c (Pipeline.arrRef spec1 6) _ = V c (Pipeline.arrRef spec1 6) _
  congr 1
  funext a
  apply Fin.ext
  match a with
  | ⟨0, _⟩ => show win1_6.index t 0 * 3 + 1 * l.val = l.val; rw [e0]; omega
  | ⟨1, _⟩ => show win1_6.index t 1 * 3 + 1 * k.val = k.val; rw [e1]; omega

/-- Entry `(p, q)` of the output window's block at point `t` is entry `(5000 t + p, q)` of the output array. -/
theorem emb7 (t : Fin cfg1.N) (p : Fin 5000) (q : Fin 128) (r : Fin 100000) (hr : r.val = t.val * 5000 + p.val) :
    ((cfg1.win 7).blk t).view.emb (ix2 p q) = (ix2 r q : S100000x128.Idx) := by
  obtain ⟨e0, e1⟩ := idx1_7 t
  funext a
  apply Fin.ext
  match a with
  | ⟨0, _⟩ => show win1_7.index t 0 * 5000 + 1 * p.val = r.val; rw [e0, hr]; omega
  | ⟨1, _⟩ => show win1_7.index t 1 * 128 + 1 * q.val = q.val; rw [e1]; omega

/-- An entry of the output array is in point `t`'s block iff each coordinate is in the block's range on its axis. -/
theorem mem_blk7 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v27).slice (win1_7.rect t)).set ↔ _
  rw [View.set_slice_whole, Rect.mem_set_unit]
  exact Iff.rfl

/-- Row `r` of the output array is written by point `r / 5000`: the 20 row blocks tile the 100000 rows. -/
theorem cover7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have ht : (i 0).val / 5000 < cfg1.N := by show (i 0).val / 5000 < 20; omega
  obtain ⟨e0, e1⟩ := idx1_7 ⟨(i 0).val / 5000, ht⟩
  refine ⟨⟨(i 0).val / 5000, ht⟩, flush1_7 _, ?_⟩
  rw [mem_blk7]
  intro a
  match a with
  | ⟨0, _⟩ => show win1_7.index ⟨(i 0).val / 5000, ht⟩ (0 : Fin 2) * 5000 ≤ (i 0).val ∧ (i 0).val < win1_7.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win1_7.index ⟨(i 0).val / 5000, ht⟩ (1 : Fin 2) * 128 ≤ (i 1).val ∧ (i 1).val < win1_7.index ⟨(i 0).val / 5000, ht⟩ (1 : Fin 2) * 128 + 128; rw [e1]; omega

section
variable (hpay : ∀ (x0 x1 x2 : Vec Ideal S5000x128 .f32) (x3 x4 x5 : Vec Ideal S128x1 .f32) (x6 : Vec Ideal S3x3 .f32) (p : Fin 5000) (j : Fin 128),
        Gen.out1_7 (F := Ideal) x0 x1 x2 x3 x4 x5 x6 (ix2 p j)
          = Cert.RowMix.out (fun d => Cert.RowMix.relu (x0 (ix2 p d))) (fun d => Cert.RowMix.relu (x1 (ix2 p d))) (fun d => x2 (ix2 p d))
              (fun d => x3 (ix2 d (0 : Fin 1))) (fun d => x4 (ix2 d (0 : Fin 1))) (fun d => x5 (ix2 d (0 : Fin 1))) (fun l k => x6 (ix2 l k)) j)
include hpay

/-- What point `t` writes back is block `t` of the whole-array mixture of the three feature arrays (the first two clamped
    at zero). -/
theorem flushed7_eq (t : Fin cfg1.N) :
    (dat1 (F := Ideal) V c).flushed 7 t = ((cfg1.win 7).blk t).view.read (Elt Ideal)
      (Cert.RowMix.GA (Cert.RowMix.reluA (V c (Pipeline.arrRef spec1 0))) (Cert.RowMix.reluA (V c (Pipeline.arrRef spec1 1)))
        (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [after1_7]
  funext y
  show out1_7 (iblk1 V c 0 t) (iblk1 V c 1 t) (iblk1 V c 2 t) (iblk1 V c 3 t) (iblk1 V c 4 t) (iblk1 V c 5 t) (iblk1 V c 6 t) y
    = Cert.RowMix.GA (Cert.RowMix.reluA (V c (Pipeline.arrRef spec1 0))) (Cert.RowMix.reluA (V c (Pipeline.arrRef spec1 1)))
        (V c (Pipeline.arrRef spec1 2)) (V c (Pipeline.arrRef spec1 3)) (V c (Pipeline.arrRef spec1 4)) (V c (Pipeline.arrRef spec1 5)) (V c (Pipeline.arrRef spec1 6))
        (((cfg1.win 7).blk t).view.emb y)
  obtain ⟨p, q, rfl⟩ : ∃ (p : Fin 5000) (q : Fin 128), y = ix2 p q := ⟨y 0, y 1, eq_ix2 y⟩
  have hr : t.val * 5000 + p.val < 100000 := by have := t_lt t; omega
  rw [emb7 t p q ⟨_, hr⟩ rfl, Cert.RowMix.GA_ix2]
  refine (hpay (iblk1 V c 0 t) (iblk1 V c 1 t) (iblk1 V c 2 t) (iblk1 V c 3 t) (iblk1 V c 4 t) (iblk1 V c 5 t) (iblk1 V c 6 t) p q).trans ?_
  unfold Cert.RowMix.G Cert.RowMix.reluA
  have h0 : ∀ d : Fin 128, (iblk1 V c 0 t : Vec Ideal S5000x128 .f32) (ix2 p d) = (V c (Pipeline.arrRef spec1 0) : S100000x128.Idx → EReal) (ix2 ⟨_, hr⟩ d) :=
    fun d => iblk1_a0 V c t p d ⟨_, hr⟩ rfl
  have h1 : ∀ d : Fin 128, (iblk1 V c 1 t : Vec Ideal S5000x128 .f32) (ix2 p d) = (V c (Pipeline.arrRef spec1 1) : S100000x128.Idx → EReal) (ix2 ⟨_, hr⟩ d) :=
    fun d => iblk1_a1 V c t p d ⟨_, hr⟩ rfl
  have h2 : ∀ d : Fin 128, (iblk1 V c 2 t : Vec Ideal S5000x128 .f32) (ix2 p d) = (V c (Pipeline.arrRef spec1 2) : S100000x128.Idx → EReal) (ix2 ⟨_, hr⟩ d) :=
    fun d => iblk1_a2 V c t p d ⟨_, hr⟩ rfl
  have h3 : ∀ d : Fin 128, (iblk1 V c 3 t : Vec Ideal S128x1 .f32) (ix2 d (0 : Fin 1)) = (V c (Pipeline.arrRef spec1 3) : S128x1.Idx → EReal) (ix2 d (0 : Fin 1)) :=
    fun d => iblk1_c3 V c t d 0
  have h4 : ∀ d : Fin 128, (iblk1 V c 4 t : Vec Ideal S128x1 .f32) (ix2 d (0 : Fin 1)) = (V c (Pipeline.arrRef spec1 4) : S128x1.Idx → EReal) (ix2 d (0 : Fin 1)) :=
    fun d => iblk1_c4 V c t d 0
  have h5 : ∀ d : Fin 128, (iblk1 V c 5 t : Vec Ideal S128x1 .f32) (ix2 d (0 : Fin 1)) = (V c (Pipeline.arrRef spec1 5) : S128x1.Idx → EReal) (ix2 d (0 : Fin 1)) :=
    fun d => iblk1_c5 V c t d 0
  have h6 : ∀ l k : Fin 3, (iblk1 V c 6 t : Vec Ideal S3x3 .f32) (ix2 l k) = (V c (Pipeline.arrRef spec1 6) : S3x3.Idx → EReal) (ix2 l k) :=
    fun l k => iblk1_m6 V c t l k
  simp only [h0, h1, h2, h3, h4, h5, h6]

/-- After the second grid the output array holds, row by row, the mixture of the three feature arrays' rows (the first
    two clamped at zero) with the weights the rows, the attention columns and the mixing matrix determine. -/
theorem final7_of :
      (Gen.dat1 (F := Ideal) V c).arrAt 7 cfg1.N
        = Cert.RowMix.GA (Cert.RowMix.reluA (V c (Pipeline.arrRef spec1 0))) (Cert.RowMix.reluA (V c (Pipeline.arrRef spec1 1)))
            (V c (Pipeline.arrRef spec1 2)) (V c (Pipeline.arrRef spec1 3)) (V c (Pipeline.arrRef spec1 4)) (V c (Pipeline.arrRef spec1 5)) (V c (Pipeline.arrRef spec1 6)) :=
  (dat1 (F := Ideal) V c).arrAt_eq_of_cover 7 _ (fun t _ => flushed7_eq V c hpay t) cover7

end

end Cert.KernelIdeal.MixValue

end
-- ==== Proof.MixPayload.lean ====
/-
  The second kernel's stored value read at one entry (row `p`, feature `j`): three times the weighted sum
  of the row's three feature entries, the weights being the softmax, over three, of the logistic scores
  mixed by the 3 × 3 matrix and divided by three.

  First the operations that are not pointwise, each read at one index over variable vectors: the
  row-by-column products, the three score columns laid side by side, the two reductions over the three
  mixed values, a vector of per-row values viewed as a column, and a column spread along the rows. Then
  the stages of the weights as arrays, each read at an index, where it meets the specification's stage of
  the same name by rewriting alone.
-/
import proofs.«124424_j79809082294822_1_alg».proof.Proof.Gen.KernelIdeal.Frame
import proofs.«124424_j79809082294822_1_alg».proof.Proof.RowMix
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.MixPayload

open Cert.KernelIdeal Cert.KernelIdeal.Gen Idealize.ShloMosaic Idealize.ShloMosaic.TcCoe Idealize.SL.Sem
  Idealize.ShloMosaic.ValueIdx

/-! ## The operations that are not pointwise, at an index -/

/-- A row of a 5000 × 128 array against a 128 × 1 column, accumulated into zero: the sum over the 128 features. -/
theorem rowcol_apply (h : FVec Ideal S5000x128 .f32) (a : FVec Ideal S128x1 .f32) (p : Fin 5000) (u : Fin 1) :
    matmul dot_S5000x128_S128x1_S5000x1_1_0_0_1_n_n none h a (constant (F := Ideal) S5000x1 .f32 0x00000000#32) (ix2 p u)
      = ∑ d : Fin 128, h (ix2 p d) * a (ix2 d u) := by
  have l0 : ∀ q, (dot_S5000x128_S128x1_S5000x1_1_0_0_1_n_n.lhsIdx (ix2 p u) q 0).val = p.val := fun q => by
    unfold DotDims.lhsIdx
    rw [dif_neg (show ¬(0 : Fin S5000x128.rank) ∈ dot_S5000x128_S128x1_S5000x1_1_0_0_1_n_n.lhsBatch by decide),
      dif_pos (show (0 : Fin S5000x128.rank) ∈ dot_S5000x128_S128x1_S5000x1_1_0_0_1_n_n.lhsNonContracting by decide)]
    rfl
  have r1 : ∀ q, (dot_S5000x128_S128x1_S5000x1_1_0_0_1_n_n.rhsIdx (ix2 p u) q 1).val = u.val := fun q => by
    unfold DotDims.rhsIdx
    rw [dif_neg (show ¬(1 : Fin S128x1.rank) ∈ dot_S5000x128_S128x1_S5000x1_1_0_0_1_n_n.rhsBatch by decide),
      dif_pos (show (1 : Fin S128x1.rank) ∈ dot_S5000x128_S128x1_S5000x1_1_0_0_1_n_n.rhsNonContracting by decide)]
    rfl
  simp only [matmul]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p u) ((ValueIdx.contrEquiv1 dot_S5000x128_S128x1_S5000x1_1_0_0_1_n_n 128 rfl rfl).symm k) = ix2 p k :=
    funext fun b => Fin.ext (by
      match b with
      | ⟨0, _⟩ => exact l0 _
      | ⟨1, _⟩ => exact (dot_S5000x128_S128x1_S5000x1_1_0_0_1_n_n.lhsIdx_val_of_single rfl _ _).trans hk)
  have er : dot_S5000x128_S128x1_S5000x1_1_0_0_1_n_n.rhsIdx (ix2 p u) ((ValueIdx.contrEquiv1 dot_S5000x128_S128x1_S5000x1_1_0_0_1_n_n 128 rfl rfl).symm k) = ix2 k u :=
    funext fun b => Fin.ext (by
      match b with
      | ⟨0, _⟩ => exact (dot_S5000x128_S128x1_S5000x1_1_0_0_1_n_n.rhsIdx_val_of_single rfl _ _).trans hk
      | ⟨1, _⟩ => exact r1 _)
  rw [el, er]

/-- A row of a 5000 × 3 array against a column of the 3 × 3 matrix, accumulated into zero: the sum over the three. -/
theorem rowmat_apply (h : FVec Ideal S5000x3 .f32) (a : FVec Ideal S3x3 .f32) (p : Fin 5000) (c : Fin 3) :
    matmul dot_S5000x3_S3x3_S5000x3_1_0_0_1_n_n none h a (constant (F := Ideal) S5000x3 .f32 0x00000000#32) (ix2 p c)
      = ∑ d : Fin 3, h (ix2 p d) * a (ix2 d c) := by
  have l0 : ∀ q, (dot_S5000x3_S3x3_S5000x3_1_0_0_1_n_n.lhsIdx (ix2 p c) q 0).val = p.val := fun q => by
    unfold DotDims.lhsIdx
    rw [dif_neg (show ¬(0 : Fin S5000x3.rank) ∈ dot_S5000x3_S3x3_S5000x3_1_0_0_1_n_n.lhsBatch by decide),
      dif_pos (show (0 : Fin S5000x3.rank) ∈ dot_S5000x3_S3x3_S5000x3_1_0_0_1_n_n.lhsNonContracting by decide)]
    rfl
  have r1 : ∀ q, (dot_S5000x3_S3x3_S5000x3_1_0_0_1_n_n.rhsIdx (ix2 p c) q 1).val = c.val := fun q => by
    unfold DotDims.rhsIdx
    rw [dif_neg (show ¬(1 : Fin S3x3.rank) ∈ dot_S5000x3_S3x3_S5000x3_1_0_0_1_n_n.rhsBatch by decide),
      dif_pos (show (1 : Fin S3x3.rank) ∈ dot_S5000x3_S3x3_S5000x3_1_0_0_1_n_n.rhsNonContracting by decide)]
    rfl
  simp only [matmul]
  rw [Ideal.matmul_constant_zero_apply, ← Equiv.sum_comp (ValueIdx.contrEquiv1 dot_S5000x3_S3x3_S5000x3_1_0_0_1_n_n 3 rfl rfl).symm]
  refine Finset.sum_congr rfl fun k _ => ?_
  have hk := ValueIdx.contrEquiv1_symm_val dot_S5000x3_S3x3_S5000x3_1_0_0_1_n_n 3 rfl rfl k
  have el : dot_S5000x3_S3x3_S5000x3_1_0_0_1_n_n.lhsIdx (ix2 p c) ((ValueIdx.contrEquiv1 dot_S5000x3_S3x3_S5000x3_1_0_0_1_n_n 3 rfl rfl).symm k) = ix2 p k :=
    funext fun b => Fin.ext (by
      match b with
      | ⟨0, _⟩ => exact l0 _
      | ⟨1, _⟩ => exact (dot_S5000x3_S3x3_S5000x3_1_0_0_1_n_n.lhsIdx_val_of_single rfl _ _).trans hk)
  have er : dot_S5000x3_S3x3_S5000x3_1_0_0_1_n_n.rhsIdx (ix2 p c) ((ValueIdx.contrEquiv1 dot_S5000x3_S3x3_S5000x3_1_0_0_1_n_n 3 rfl rfl).symm k) = ix2 k c :=
    funext fun b => Fin.ext (by
      match b with
      | ⟨0, _⟩ => exact (dot_S5000x3_S3x3_S5000x3_1_0_0_1_n_n.rhsIdx_val_of_single rfl _ _).trans hk
      | ⟨1, _⟩ => exact r1 _)
  rw [el, er]

/-- Three 5000 × 1 columns laid side by side read, in column 0, the first of them. -/
theorem cat3_apply0 (a b c : FVec Ideal S5000x1 .f32) (p : Fin 5000) :
    concatenate S5000x3 1 [⟨S5000x1, a⟩, ⟨S5000x1, b⟩, ⟨S5000x1, c⟩] concatenates_S5000x1_S5000x1_S5000x1_S5000x3_d1
        (ix2 p (0 : Fin 3))
      = a (ix2 p (0 : Fin 1)) :=
  concatenate_apply_piece (1 : Fin S5000x3.rank) _ _ (ix2 p (0 : Fin 3)) 0 (by show (0 : ℕ) < 3; omega) S5000x1 a rfl rfl 0 rfl
    (ix2 p (0 : Fin 1)) (fun b hb => by
      match b with
      | ⟨0, _⟩ => rfl
      | ⟨1, _⟩ => exact absurd rfl hb) rfl

/-- Three 5000 × 1 columns laid side by side read, in column 1, the second of them. -/
theorem cat3_apply1 (a b c : FVec Ideal S5000x1 .f32) (p : Fin 5000) :
    concatenate S5000x3 1 [⟨S5000x1, a⟩, ⟨S5000x1, b⟩, ⟨S5000x1, c⟩] concatenates_S5000x1_S5000x1_S5000x1_S5000x3_d1
        (ix2 p (1 : Fin 3))
      = b (ix2 p (0 : Fin 1)) :=
  concatenate_apply_piece (1 : Fin S5000x3.rank) _ _ (ix2 p (1 : Fin 3)) 1 (by show (1 : ℕ) < 3; omega) S5000x1 b rfl rfl 1 rfl
    (ix2 p (0 : Fin 1)) (fun b hb => by
      match b with
      | ⟨0, _⟩ => rfl
      | ⟨1, _⟩ => exact absurd rfl hb) rfl

/-- Three 5000 × 1 columns laid side by side read, in column 2, the third of them. -/
theorem cat3_apply2 (a b c : FVec Ideal S5000x1 .f32) (p : Fin 5000) :
    concatenate S5000x3 1 [⟨S5000x1, a⟩, ⟨S5000x1, b⟩, ⟨S5000x1, c⟩] concatenates_S5000x1_S5000x1_S5000x1_S5000x3_d1
        (ix2 p (2 : Fin 3))
      = c (ix2 p (0 : Fin 1)) :=
  concatenate_apply_piece (1 : Fin S5000x3.rank) _ _ (ix2 p (2 : Fin 3)) 2 (by show (2 : ℕ) < 3; omega) S5000x1 c rfl rfl 2 rfl
    (ix2 p (0 : Fin 1)) (fun b hb => by
      match b with
      | ⟨0, _⟩ => rfl
      | ⟨1, _⟩ => exact absurd rfl hb) rfl

/-- The largest of a row's three values, folded from minus infinity. -/
theorem rowmax_apply (v : FVec Ideal S5000x3 .f32) (p : Fin 5000) :
    multiReduction (F := Ideal) .maximumf [1] S5000 v 0xFF800000#32 reduces_S5000x3_S5000 (.inl rfl) rfl (ix1 p)
      = (Finset.univ : Finset (Fin 3)).fold max (Ideal.ofBits .f32 0xFF800000#32) (fun k => v (ix2 p k)) := by
  refine (Ideal.multiReduction_maximumf_single v 0xFF800000#32 reduces_S5000x3_S5000 (.inl rfl) rfl (ix1 p)).trans ?_
  refine congrArg (fun f : Fin 3 → EReal => (Finset.univ : Finset (Fin 3)).fold max (Ideal.ofBits .f32 0xFF800000#32) f)
    (funext fun k => congrArg v (funext fun b => Fin.ext ?_))
  match b with
  | ⟨0, _⟩ => rfl
  | ⟨1, _⟩ => rfl

/-- The sum of a row's three values. -/
theorem rowsum_apply (v : FVec Ideal S5000x3 .f32) (p : Fin 5000) :
    multiReduction (F := Ideal) .add [1] S5000 v 0x00000000#32 reduces_S5000x3_S5000 (.inl rfl) rfl (ix1 p)
      = ∑ k : Fin 3, v (ix2 p k) := by
  refine (Ideal.multiReduction_add_single v 0x00000000#32 reduces_S5000x3_S5000 (.inl rfl) rfl (ix1 p)).trans ?_
  refine Finset.sum_congr rfl fun k _ => congrArg v (funext fun b => Fin.ext ?_)
  match b with
  | ⟨0, _⟩ => rfl
  | ⟨1, _⟩ => rfl

section Layout
variable {α : Type}

/-- A vector of per-row values viewed as a column reads, at row `p`, the value of row `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column spread along the rows reads, at `(p, c)`, the column's value at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The zero offsets of a whole rectangle of rank two. -/
theorem hz : (![0, 0] : Fin 2 → Nat) = fun _ => 0 := funext fun a => by fin_cases a <;> rfl

/-! ## The three feature rows -/

/-- The low-pass aggregate clamped at zero, entry by entry. -/
theorem pay2_apply (x : Vec Ideal S5000x128 .f32) (p : Fin 5000) (d : Fin 128) :
    k1_pay2 (F := Ideal) x (ix2 p d) = Cert.RowMix.relu (x (ix2 p d)) := by
  unfold k1_pay2
  show max (shapeCast S5000x128 x shapeCasts_S5000x128_S5000x128 (ix2 p d)) _ = _
  rw [shapeCast_self]
  rfl

/-- The high-pass aggregate clamped at zero, entry by entry. -/
theorem pay3_apply (x : Vec Ideal S5000x128 .f32) (p : Fin 5000) (d : Fin 128) :
    k1_pay3 (F := Ideal) x (ix2 p d) = Cert.RowMix.relu (x (ix2 p d)) := by
  unfold k1_pay3
  show max (shapeCast S5000x128 x shapeCasts_S5000x128_S5000x128 (ix2 p d)) _ = _
  rw [shapeCast_self]
  rfl

/-- The dense projection as it is. -/
theorem pay4_apply (x : Vec Ideal S5000x128 .f32) (p : Fin 5000) (d : Fin 128) :
    k1_pay4 (F := Ideal) x (ix2 p d) = x (ix2 p d) := by
  unfold k1_pay4
  show shapeCast S5000x128 x shapeCasts_S5000x128_S5000x128 (ix2 p d) = _
  rw [shapeCast_self]

/-! ## The stages of the weights, as arrays -/

/-- The three scores of every row, side by side. -/
def scoresV (x0 x1 x2 : FVec Ideal S5000x128 .f32) (x3 x4 x5 : FVec Ideal S128x1 .f32) : FVec Ideal S5000x3 .f32 :=
  concatenate S5000x3 1
    [⟨S5000x1, matmul dot_S5000x128_S128x1_S5000x1_1_0_0_1_n_n none (k1_pay2 x0) x3 (constant (F := Ideal) S5000x1 .f32 0x00000000#32)⟩,
     ⟨S5000x1, matmul dot_S5000x128_S128x1_S5000x1_1_0_0_1_n_n none (k1_pay3 x1) x4 (constant (F := Ideal) S5000x1 .f32 0x00000000#32)⟩,
     ⟨S5000x1, matmul dot_S5000x128_S128x1_S5000x1_1_0_0_1_n_n none (k1_pay4 x2) x5 (constant (F := Ideal) S5000x1 .f32 0x00000000#32)⟩]
    concatenates_S5000x1_S5000x1_S5000x1_S5000x3_d1

/-- The logistic of the scores mixed by the matrix, divided by three. -/
def mixedV (s : FVec Ideal S5000x3 .f32) (av : FVec Ideal S3x3 .f32) : FVec Ideal S5000x3 .f32 :=
  divf (matmul dot_S5000x3_S3x3_S5000x3_1_0_0_1_n_n none (logistic s) av (constant (F := Ideal) S5000x3 .f32 0x00000000#32))
    (broadcast S5000x3 (Scalar.ofBits (F := Ideal) .f32 0x40400000#32))

/-- Every row's largest mixed value. -/
def topV (x : FVec Ideal S5000x3 .f32) : FVec Ideal S5000 .f32 :=
  maximumf (broadcast S5000 (Scalar.ofBits (F := Ideal) .f32 0xFF800000#32))
    (multiReduction (F := Ideal) .maximumf [1] S5000 x 0xFF800000#32 reduces_S5000x3_S5000 (.inl rfl) rfl)

/-- The exponentials of the mixed values shifted by their row's largest. -/
def expoV (x : FVec Ideal S5000x3 .f32) : FVec Ideal S5000x3 .f32 :=
  exp (subf x (broadcastTo S5000x3 (shapeCast S5000x1 (topV x) shapeCasts_S5000_S5000x1) broadcasts_S5000x1_S5000x3))

/-- The softmax weights of every row. -/
def weightV (x : FVec Ideal S5000x3 .f32) : FVec Ideal S5000x3 .f32 :=
  divf (expoV x)
    (broadcastTo S5000x3
      (shapeCast S5000x1 (multiReduction (F := Ideal) .add [1] S5000 (expoV x) 0x00000000#32 reduces_S5000x3_S5000 (.inl rfl) rfl)
        shapeCasts_S5000_S5000x1)
      broadcasts_S5000x1_S5000x3)

/-- The kernel's weights are these stages composed. -/
theorem pay5_eq (x0 x1 x2 : Vec Ideal S5000x128 .f32) (x3 x4 x5 : Vec Ideal S128x1 .f32) (x6 : Vec Ideal S3x3 .f32) :
    k1_pay5 (F := Ideal) x0 x1 x2 x3 x4 x5 x6 = weightV (mixedV (scoresV x0 x1 x2 x3 x4 x5) x6) := rfl

/-! ## Each stage at an index -/

/-- The scores array at row `p` and column `l` is score `l` of the row's three feature rows. -/
theorem scoresV_apply (x0 x1 x2 : FVec Ideal S5000x128 .f32) (x3 x4 x5 : FVec Ideal S128x1 .f32) (p : Fin 5000) (l : Fin 3) :
    scoresV x0 x1 x2 x3 x4 x5 (ix2 p l)
      = Cert.RowMix.scores (fun d => Cert.RowMix.relu (x0 (ix2 p d))) (fun d => Cert.RowMix.relu (x1 (ix2 p d)))
          (fun d => x2 (ix2 p d)) (fun d => x3 (ix2 d (0 : Fin 1))) (fun d => x4 (ix2 d (0 : Fin 1)))
          (fun d => x5 (ix2 d (0 : Fin 1))) l := by
  unfold scoresV
  match l with
  | ⟨0, _⟩ =>
    refine (cat3_apply0 _ _ _ p).trans ((rowcol_apply _ _ p 0).trans ?_)
    show _ = Cert.RowMix.score _ _
    unfold Cert.RowMix.score
    exact Finset.sum_congr rfl fun d _ => by rw [pay2_apply]
  | ⟨1, _⟩ =>
    refine (cat3_apply1 _ _ _ p).trans ((rowcol_apply _ _ p 0).trans ?_)
    show _ = Cert.RowMix.score _ _
    unfold Cert.RowMix.score
    exact Finset.sum_congr rfl fun d _ => by rw [pay3_apply]
  | ⟨2, _⟩ =>
    refine (cat3_apply2 _ _ _ p).trans ((rowcol_apply _ _ p 0).trans ?_)
    show _ = Cert.RowMix.score _ _
    unfold Cert.RowMix.score
    exact Finset.sum_congr rfl fun d _ => by rw [pay4_apply]

/-- The mixed array at row `p` and column `k`. -/
theorem mixedV_apply (s : FVec Ideal S5000x3 .f32) (av : FVec Ideal S3x3 .f32) (p : Fin 5000) (k : Fin 3) :
    mixedV s av (ix2 p k) = Cert.RowMix.mixed (fun l => s (ix2 p l)) (fun l k => av (ix2 l k)) k := by
  unfold mixedV
  show Ideal.div (matmul dot_S5000x3_S3x3_S5000x3_1_0_0_1_n_n none (logistic s) av
      (constant (F := Ideal) S5000x3 .f32 0x00000000#32) (ix2 p k)) _ = _
  rw [rowmat_apply]
  rfl

/-- The largest mixed value of row `p`. -/
theorem topV_apply (x : FVec Ideal S5000x3 .f32) (p : Fin 5000) :
    topV x (ix1 p) = Cert.RowMix.top (fun k => x (ix2 p k)) := by
  unfold topV
  show max _ (multiReduction (F := Ideal) .maximumf [1] S5000 x 0xFF800000#32 reduces_S5000x3_S5000 (.inl rfl) rfl (ix1 p)) = _
  rw [rowmax_apply]
  rfl

/-- The shifted exponential at row `p` and column `k`. -/
theorem expoV_apply (x : FVec Ideal S5000x3 .f32) (p : Fin 5000) (k : Fin 3) :
    expoV x (ix2 p k) = Cert.RowMix.expo (fun k => x (ix2 p k)) k := by
  unfold expoV
  show Ideal.exp (x (ix2 p k)
      - broadcastTo S5000x3 (shapeCast S5000x1 (topV x) shapeCasts_S5000_S5000x1) broadcasts_S5000x1_S5000x3 (ix2 p k)) = _
  rw [broadcastTo_a1_ab_apply, shapeCast_a_a1_apply, topV_apply]
  rfl

/-- The softmax weight at row `p` and column `k`. -/
theorem weightV_apply (x : FVec Ideal S5000x3 .f32) (p : Fin 5000) (k : Fin 3) :
    weightV x (ix2 p k) = Cert.RowMix.weight (fun k => x (ix2 p k)) k := by
  unfold weightV
  show Ideal.div (expoV x (ix2 p k))
      (broadcastTo S5000x3
        (shapeCast S5000x1 (multiReduction (F := Ideal) .add [1] S5000 (expoV x) 0x00000000#32 reduces_S5000x3_S5000 (.inl rfl) rfl)
          shapeCasts_S5000_S5000x1)
        broadcasts_S5000x1_S5000x3 (ix2 p k)) = _
  rw [broadcastTo_a1_ab_apply, shapeCast_a_a1_apply, rowsum_apply]
  simp only [expoV_apply]
  rfl

/-! ## The payloads at an index -/

/-- The kernel's weight array at row `p` and column `k` is the specification's weight `k` of the row. -/
theorem pay5_apply (x0 x1 x2 : Vec Ideal S5000x128 .f32) (x3 x4 x5 : Vec Ideal S128x1 .f32) (x6 : Vec Ideal S3x3 .f32)
    (p : Fin 5000) (k : Fin 3) :
    k1_pay5 (F := Ideal) x0 x1 x2 x3 x4 x5 x6 (ix2 p k)
      = Cert.RowMix.weight (Cert.RowMix.mixed
          (Cert.RowMix.scores (fun d => Cert.RowMix.relu (x0 (ix2 p d))) (fun d => Cert.RowMix.relu (x1 (ix2 p d)))
            (fun d => x2 (ix2 p d)) (fun d => x3 (ix2 d (0 : Fin 1))) (fun d => x4 (ix2 d (0 : Fin 1)))
            (fun d => x5 (ix2 d (0 : Fin 1))))
          (fun l k => x6 (ix2 l k))) k := by
  rw [pay5_eq, weightV_apply]
  refine congrArg (fun x => Cert.RowMix.weight x k) (funext fun k' => ?_)
  rw [mixedV_apply]
  exact congrArg (fun s => Cert.RowMix.mixed s _ k') (funext fun l => scoresV_apply x0 x1 x2 x3 x4 x5 p l)

/-- The first weight spread along the row. -/
theorem pay6_apply (x0 x1 x2 : Vec Ideal S5000x128 .f32) (x3 x4 x5 : Vec Ideal S128x1 .f32) (x6 : Vec Ideal S3x3 .f32)
    (p : Fin 5000) (j : Fin 128) :
    k1_pay6 (F := Ideal) x0 x1 x2 x3 x4 x5 x6 (ix2 p j) = k1_pay5 (F := Ideal) x0 x1 x2 x3 x4 x5 x6 (ix2 p (0 : Fin 3)) := by
  unfold k1_pay6
  show broadcastTo S5000x128 (extractStridedSlice S5000x1 ![0, 0] (k1_pay5 (F := Ideal) x0 x1 x2 x3 x4 x5 x6) slices_S5000x3_o0_0_S5000x1)
      broadcasts_S5000x1_S5000x128 (ix2 p j) = _
  rw [broadcastTo_a1_ab_apply]
  exact slice2_axis1_apply 0 _ _ p (0 : Fin 1) (0 : Fin 3) rfl

/-- The stored value over variable rows and weights: three times the weighted sum. -/
theorem pay1_apply (v3 v7 v9 : FVec Ideal S5000x128 .f32) (v32 : FVec Ideal S5000x3 .f32) (v34 : FVec Ideal S5000x128 .f32)
    (p : Fin 5000) (j : Fin 128) :
    k1_pay1 (F := Ideal) v3 v7 v9 v32 v34 (ix2 p j)
      = Cert.RowMix.three * ((v34 (ix2 p j) * v3 (ix2 p j) + v32 (ix2 p (1 : Fin 3)) * v7 (ix2 p j))
          + v32 (ix2 p (2 : Fin 3)) * v9 (ix2 p j)) := by
  unfold k1_pay1
  show Cert.RowMix.three * ((v34 (ix2 p j) * v3 (ix2 p j)
      + broadcastTo S5000x128 (extractStridedSlice S5000x1 ![0, 1] v32 slices_S5000x3_o0_1_S5000x1)
          broadcasts_S5000x1_S5000x128 (ix2 p j) * v7 (ix2 p j))
      + broadcastTo S5000x128 (extractStridedSlice S5000x1 ![0, 2] v32 slices_S5000x3_o0_2_S5000x1)
          broadcasts_S5000x1_S5000x128 (ix2 p j) * v9 (ix2 p j)) = _
  rw [broadcastTo_a1_ab_apply, broadcastTo_a1_ab_apply,
    slice2_axis1_apply 1 v32 _ p (0 : Fin 1) (1 : Fin 3) rfl, slice2_axis1_apply 2 v32 _ p (0 : Fin 1) (2 : Fin 3) rfl]

/-! ## The stored block at an index -/

/-- What the second kernel's body leaves in its output block, at row `p` and feature `j`: the specification's
    output entry of the row's three feature rows (the first two clamped at zero), the three attention columns and the
    mixing matrix. -/
theorem out1_7_apply (x0 x1 x2 : Vec Ideal S5000x128 .f32) (x3 x4 x5 : Vec Ideal S128x1 .f32) (x6 : Vec Ideal S3x3 .f32)
    (p : Fin 5000) (j : Fin 128) :
    Gen.out1_7 (F := Ideal) x0 x1 x2 x3 x4 x5 x6 (ix2 p j)
      = Cert.RowMix.out (fun d => Cert.RowMix.relu (x0 (ix2 p d))) (fun d => Cert.RowMix.relu (x1 (ix2 p d))) (fun d => x2 (ix2 p d))
          (fun d => x3 (ix2 d (0 : Fin 1))) (fun d => x4 (ix2 d (0 : Fin 1))) (fun d => x5 (ix2 d (0 : Fin 1))) (fun l k => x6 (ix2 l k)) j := by
  unfold Gen.out1_7
  rw [View.canon_unit_zero hz]
  simp only [View.ld_unit_zero (S := S5000x128) hz, View.ld_unit_zero (S := S128x1) hz, View.ld_unit_zero (S := S3x3) hz]
  rw [pay1_apply, pay6_apply, pay5_apply, pay5_apply, pay5_apply, pay2_apply, pay3_apply, pay4_apply]
  rfl

end Cert.KernelIdeal.MixPayload

end
-- ==== Proof.KernelBridge.lean ====
/-
  The idealized kernel's result as the whole computation of its launched arguments.

  The second grid's output window is, block by block, the row mixture of the three feature arrays the
  grid finds when it is entered. Those are read back through the walk of @main: the two aggregates are
  the host stretch's aggregation `agg` of the first grid's first two output arrays and of launched
  arguments; the third feature array and the four small operands pass the host stretch untouched; and
  the first grid's three output arrays are the dense projections of the launched `x` by the three
  launched matrices, the third clamped at zero.
-/
import proofs.«124424_j79809082294822_1_alg».proof.Proof.KernelRun
import proofs.«124424_j79809082294822_1_alg».proof.Proof.Aggregate
import proofs.«124424_j79809082294822_1_alg».proof.Proof.ProjValue
import proofs.«124424_j79809082294822_1_alg».proof.Proof.MixValue
import proofs.«124424_j79809082294822_1_alg».proof.Proof.MixPayload
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Cert.RowMix (PA GA reluA)

variable (m : (ℓ : Loc nD τ sig) → Buf (Elt Ideal) ℓ) (ρ : Dev nD → PrngReg) (c : Dev nD)

/-! ### The buffers the second grid finds: each is read back through the host stretch and the first grid -/

set_option maxHeartbeats 4000000 in
theorem entry_low : V2 m ρ c main_v13
    = agg (W1 m ρ c (Proc.devRef .tc main_v0_0)) (W1 m ρ c (Proc.devRef .tc main_arg1)) (W1 m ρ c (Proc.devRef .tc main_arg2)) (W1 m ρ c (Proc.devRef .tc main_arg3)) := by
  show StableHlo.after hostOps1 (W1 m ρ c) (Proc.devRef .tc main_v13) = _
  after_results_simp
  rfl

set_option maxHeartbeats 4000000 in
theorem entry_high : V2 m ρ c main_v26
    = agg (W1 m ρ c (Proc.devRef .tc main_v0_1)) (W1 m ρ c (Proc.devRef .tc main_arg1)) (W1 m ρ c (Proc.devRef .tc main_arg2)) (W1 m ρ c (Proc.devRef .tc main_arg4)) := by
  show StableHlo.after hostOps1 (W1 m ρ c) (Proc.devRef .tc main_v26) = _
  after_results_simp
  rfl

set_option maxHeartbeats 4000000 in
theorem entry_mlp : V2 m ρ c main_v0_2 = W1 m ρ c (Proc.devRef .tc main_v0_2) := by
  show StableHlo.after hostOps1 (W1 m ρ c) (Proc.devRef .tc main_v0_2) = _
  after_results_simp
set_option maxHeartbeats 4000000 in
theorem entry_arg9 : V2 m ρ c main_arg9 = W1 m ρ c (Proc.devRef .tc main_arg9) := by
  show StableHlo.after hostOps1 (W1 m ρ c) (Proc.devRef .tc main_arg9) = _
  after_results_simp
set_option maxHeartbeats 4000000 in
theorem entry_arg10 : V2 m ρ c main_arg10 = W1 m ρ c (Proc.devRef .tc main_arg10) := by
  show StableHlo.after hostOps1 (W1 m ρ c) (Proc.devRef .tc main_arg10) = _
  after_results_simp
set_option maxHeartbeats 4000000 in
theorem entry_arg11 : V2 m ρ c main_arg11 = W1 m ρ c (Proc.devRef .tc main_arg11) := by
  show StableHlo.after hostOps1 (W1 m ρ c) (Proc.devRef .tc main_arg11) = _
  after_results_simp
set_option maxHeartbeats 4000000 in
theorem entry_arg12 : V2 m ρ c main_arg12 = W1 m ρ c (Proc.devRef .tc main_arg12) := by
  show StableHlo.after hostOps1 (W1 m ρ c) (Proc.devRef .tc main_arg12) = _
  after_results_simp

/-- A buffer the first grid does not write is as launched after it. -/
theorem exit_arg (b : Ref sig .tc) (hb : ∀ w, Pipeline.arrRef spec0 w ≠ b) :
    W1 m ρ c (Proc.devRef .tc b) = m ((c.tc : Thread nD τ).loc b) := W1_of_ne m ρ c b hb

/-- The first grid's three output arrays after it: the projections of the launched `x` by the three launched matrices. -/
theorem exit_low : W1 m ρ c (Proc.devRef .tc main_v0_0)
    = PA (m ((c.tc : Thread nD τ).loc main_arg0)) (m ((c.tc : Thread nD τ).loc main_arg6)) :=
  (W1_arr m ρ c 4).trans (Cert.KernelIdeal.ProjValue.final4 (V0 m ρ) c)
theorem exit_high : W1 m ρ c (Proc.devRef .tc main_v0_1)
    = PA (m ((c.tc : Thread nD τ).loc main_arg0)) (m ((c.tc : Thread nD τ).loc main_arg7)) :=
  (W1_arr m ρ c 5).trans (Cert.KernelIdeal.ProjValue.final5 (V0 m ρ) c)
theorem exit_mlp : W1 m ρ c (Proc.devRef .tc main_v0_2)
    = reluA (PA (m ((c.tc : Thread nD τ).loc main_arg0)) (m ((c.tc : Thread nD τ).loc main_arg8))) :=
  (W1_arr m ρ c 6).trans (Cert.KernelIdeal.ProjValue.final6 (V0 m ρ) c)

/-- What the second grid's write-backs leave of its output window: the whole computation of the launched arguments. -/
theorem kernel_value : (dat1 (V2 m ρ) c).arrAt 7 cfg1.N
    = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) := by
  have e0 : V2 m ρ c (Pipeline.arrRef spec1 0) = agg (PA (m ((c.tc : Thread nD τ).loc main_arg0)) (m ((c.tc : Thread nD τ).loc main_arg6)))
      (m ((c.tc : Thread nD τ).loc main_arg1)) (m ((c.tc : Thread nD τ).loc main_arg2)) (m ((c.tc : Thread nD τ).loc main_arg3)) := by
    refine (entry_low m ρ c).trans ?_
    rw [exit_low, exit_arg m ρ c main_arg1 (by decide), exit_arg m ρ c main_arg2 (by decide), exit_arg m ρ c main_arg3 (by decide)]
  have e1 : V2 m ρ c (Pipeline.arrRef spec1 1) = agg (PA (m ((c.tc : Thread nD τ).loc main_arg0)) (m ((c.tc : Thread nD τ).loc main_arg7)))
      (m ((c.tc : Thread nD τ).loc main_arg1)) (m ((c.tc : Thread nD τ).loc main_arg2)) (m ((c.tc : Thread nD τ).loc main_arg4)) := by
    refine (entry_high m ρ c).trans ?_
    rw [exit_high, exit_arg m ρ c main_arg1 (by decide), exit_arg m ρ c main_arg2 (by decide), exit_arg m ρ c main_arg4 (by decide)]
  have e2 : V2 m ρ c (Pipeline.arrRef spec1 2) = reluA (PA (m ((c.tc : Thread nD τ).loc main_arg0)) (m ((c.tc : Thread nD τ).loc main_arg8))) :=
    (entry_mlp m ρ c).trans (exit_mlp m ρ c)
  have e3 : V2 m ρ c (Pipeline.arrRef spec1 3) = m ((c.tc : Thread nD τ).loc main_arg9) :=
    (entry_arg9 m ρ c).trans (exit_arg m ρ c main_arg9 (by decide))
  have e4 : V2 m ρ c (Pipeline.arrRef spec1 4) = m ((c.tc : Thread nD τ).loc main_arg10) :=
    (entry_arg10 m ρ c).trans (exit_arg m ρ c main_arg10 (by decide))
  have e5 : V2 m ρ c (Pipeline.arrRef spec1 5) = m ((c.tc : Thread nD τ).loc main_arg11) :=
    (entry_arg11 m ρ c).trans (exit_arg m ρ c main_arg11 (by decide))
  have e6 : V2 m ρ c (Pipeline.arrRef spec1 6) = m ((c.tc : Thread nD τ).loc main_arg12) :=
    (entry_arg12 m ρ c).trans (exit_arg m ρ c main_arg12 (by decide))
  rw [Cert.KernelIdeal.MixValue.final7_of (V2 m ρ) c Cert.KernelIdeal.MixPayload.out1_7_apply, e0, e1, e2, e3, e4, e5, e6]
  rfl

end Cert.KernelIdeal.Bridge

end
-- ==== Proof.RefRead.lean ====
/-
  The reference program read index by index, against the mathematics stated over no program.

  A dense projection is, entry by entry, the sum over the 256 contracted coordinates; a clamped array is, entry
  by entry, the maximum with the zero word; and the program's tail — scores, logistic, 3 × 3 mixing, softmax
  over three, weighted sum of three rows, times three — is the output array of the row mixture.
-/
import proofs.«124424_j79809082294822_1_alg».proof.Proof.Gen.ReferenceIdeal.Read
import proofs.«124424_j79809082294822_1_alg».proof.Proof.RowMix
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

variable (x0 : (⟨S100000x256, .f32⟩ : BufTy).Contents (Elt Ideal)) (x1 x2 : (⟨S1600000, .i32⟩ : BufTy).Contents (Elt Ideal)) (x3 x4 : (⟨S1600000, .f32⟩ : BufTy).Contents (Elt Ideal)) (x6 x7 x8 : (⟨S256x128, .f32⟩ : BufTy).Contents (Elt Ideal)) (x9 x10 x11 : (⟨S128x1, .f32⟩ : BufTy).Contents (Elt Ideal)) (x12 : (⟨S3x3, .f32⟩ : BufTy).Contents (Elt Ideal))

/-- The dense projection read entry by entry: the contraction's two index functions are the coordinates
    `(r, k)` of the array and `(k, c)` of the matrix. -/
theorem proj0 : val_main_v0 (F := Ideal) x0 x6 = Cert.RowMix.PA x0 x6 := by
  funext i
  obtain ⟨r, c, rfl⟩ : ∃ (r : Fin 100000) (c : Fin 128), i = ix2 r c := ⟨i 0, i 1, eq_ix2 i⟩
  rw [val_main_v0_apply, Cert.RowMix.PA_ix2]
  unfold Cert.RowMix.P
  refine Finset.sum_congr rfl fun k _ => ?_
  have el : lidx_main_v0 (ix2 r c) k = ix2 r k :=
    funext fun a => Fin.ext (by match a with | ⟨0, _⟩ => rfl | ⟨1, _⟩ => rfl)
  have er : ridx_main_v0 (ix2 r c) k = ix2 k c :=
    funext fun a => Fin.ext (by match a with | ⟨0, _⟩ => rfl | ⟨1, _⟩ => rfl)
  rw [el, er]

theorem proj15 : val_main_v15 (F := Ideal) x0 x7 = Cert.RowMix.PA x0 x7 := by
  funext i
  obtain ⟨r, c, rfl⟩ : ∃ (r : Fin 100000) (c : Fin 128), i = ix2 r c := ⟨i 0, i 1, eq_ix2 i⟩
  rw [val_main_v15_apply, Cert.RowMix.PA_ix2]
  unfold Cert.RowMix.P
  refine Finset.sum_congr rfl fun k _ => ?_
  have el : lidx_main_v15 (ix2 r c) k = ix2 r k :=
    funext fun a => Fin.ext (by match a with | ⟨0, _⟩ => rfl | ⟨1, _⟩ => rfl)
  have er : ridx_main_v15 (ix2 r c) k = ix2 k c :=
    funext fun a => Fin.ext (by match a with | ⟨0, _⟩ => rfl | ⟨1, _⟩ => rfl)
  rw [el, er]

theorem proj30 : val_main_v30 (F := Ideal) x0 x8 = Cert.RowMix.PA x0 x8 := by
  funext i
  obtain ⟨r, c, rfl⟩ : ∃ (r : Fin 100000) (c : Fin 128), i = ix2 r c := ⟨i 0, i 1, eq_ix2 i⟩
  rw [val_main_v30_apply, Cert.RowMix.PA_ix2]
  unfold Cert.RowMix.P
  refine Finset.sum_congr rfl fun k _ => ?_
  have el : lidx_main_v30 (ix2 r c) k = ix2 r k :=
    funext fun a => Fin.ext (by match a with | ⟨0, _⟩ => rfl | ⟨1, _⟩ => rfl)
  have er : ridx_main_v30 (ix2 r c) k = ix2 k c :=
    funext fun a => Fin.ext (by match a with | ⟨0, _⟩ => rfl | ⟨1, _⟩ => rfl)
  rw [el, er]

/-- Clamping at zero: the maximum with an array that is the zero word at every index. -/
theorem relu14 : val_main_v14 (F := Ideal) x0 x1 x2 x3 x6
    = Cert.RowMix.reluA (val_main_v13 (F := Ideal) x0 x1 x2 x3 x6) := by
  funext i
  rw [val_main_v14_apply, val_main_call0_v0_apply, val_main_call0_cst_apply]
  generalize val_main_v13 (F := Ideal) x0 x1 x2 x3 x6 = y
  rfl

theorem relu29 : val_main_v29 (F := Ideal) x0 x1 x2 x4 x7
    = Cert.RowMix.reluA (val_main_v28 (F := Ideal) x0 x1 x2 x4 x7) := by
  funext i
  rw [val_main_v29_apply, val_main_call1_v0_apply, val_main_call1_cst_apply]
  generalize val_main_v28 (F := Ideal) x0 x1 x2 x4 x7 = y
  rfl

theorem relu31 : val_main_v31 (F := Ideal) x0 x8 = Cert.RowMix.reluA (val_main_v30 (F := Ideal) x0 x8) := by
  funext i
  rw [val_main_v31_apply, val_main_call2_v0_apply, val_main_call2_cst_apply]
  generalize val_main_v30 (F := Ideal) x0 x8 = y
  rfl

/-! ## The tail, stage by stage at explicit coordinates -/

/-- Three one-column arrays joined along the column axis: column `l` of the result is the `l`-th array's only
    column. -/
theorem cat3_at (y0 y1 y2 : S100000x1.Idx → EReal)
    (h : Shape.Concatenates [S100000x1, S100000x1, S100000x1] S100000x3 1) (r : Fin 100000) :
    concatenate S100000x3 1 [⟨S100000x1, y0⟩, ⟨S100000x1, y1⟩, ⟨S100000x1, y2⟩] h (ix2 r (0 : Fin 3)) = y0 (ix2 r (0 : Fin 1))
    ∧ concatenate S100000x3 1 [⟨S100000x1, y0⟩, ⟨S100000x1, y1⟩, ⟨S100000x1, y2⟩] h (ix2 r (1 : Fin 3)) = y1 (ix2 r (0 : Fin 1))
    ∧ concatenate S100000x3 1 [⟨S100000x1, y0⟩, ⟨S100000x1, y1⟩, ⟨S100000x1, y2⟩] h (ix2 r (2 : Fin 3)) = y2 (ix2 r (0 : Fin 1)) := by
  have hi : ∀ (l : Fin 3) (b : Fin S100000x1.rank), b.cast (rfl : S100000x1.rank = S100000x3.rank) ≠ (1 : Fin S100000x3.rank) →
      ((ix2 r (0 : Fin 1) : S100000x1.Idx) b).val = ((ix2 r l : S100000x3.Idx) (b.cast rfl)).val := by
    intro l b hb
    match b with
    | ⟨0, _⟩ => rfl
    | ⟨1, _⟩ => exact absurd rfl hb
  refine ⟨?_, ?_, ?_⟩
  · exact concatenate_apply_piece (t := S100000x3) 1 [⟨S100000x1, y0⟩, ⟨S100000x1, y1⟩, ⟨S100000x1, y2⟩] h
      (ix2 r (0 : Fin 3)) 0 (show 0 < 3 by omega) S100000x1 y0 rfl rfl 0 rfl (ix2 r (0 : Fin 1)) (hi 0) rfl
  · exact concatenate_apply_piece (t := S100000x3) 1 [⟨S100000x1, y0⟩, ⟨S100000x1, y1⟩, ⟨S100000x1, y2⟩] h
      (ix2 r (1 : Fin 3)) 1 (show 1 < 3 by omega) S100000x1 y1 rfl rfl 1 rfl (ix2 r (0 : Fin 1)) (hi 1) rfl
  · exact concatenate_apply_piece (t := S100000x3) 1 [⟨S100000x1, y0⟩, ⟨S100000x1, y1⟩, ⟨S100000x1, y2⟩] h
      (ix2 r (2 : Fin 3)) 2 (show 2 < 3 by omega) S100000x1 y2 rfl rfl 2 rfl (ix2 r (0 : Fin 1)) (hi 2) rfl

/-- The three rows of node `r` as functions of the feature. -/
def rowL (r : Fin 100000) : Fin 128 → EReal := fun d => (val_main_v14 (F := Ideal) x0 x1 x2 x3 x6) (ix2 r d)
def rowH (r : Fin 100000) : Fin 128 → EReal := fun d => (val_main_v29 (F := Ideal) x0 x1 x2 x4 x7) (ix2 r d)
def rowM (r : Fin 100000) : Fin 128 → EReal := fun d => (val_main_v31 (F := Ideal) x0 x8) (ix2 r d)

/-- Node `r`'s three scores, and the three mixed values the softmax is taken over. -/
def sc (r : Fin 100000) : Fin 3 → EReal :=
  Cert.RowMix.scores (rowL x0 x1 x2 x3 x6 r) (rowH x0 x1 x2 x4 x7 r) (rowM x0 x8 r) (fun d : Fin 128 => x9 (ix2 d (0 : Fin 1))) (fun d : Fin 128 => x10 (ix2 d (0 : Fin 1))) (fun d : Fin 128 => x11 (ix2 d (0 : Fin 1)))
def mx (r : Fin 100000) : Fin 3 → EReal := Cert.RowMix.mixed (sc x0 x1 x2 x3 x4 x6 x7 x8 x9 x10 x11 r) (fun l k : Fin 3 => x12 (ix2 l k))

/-- Column `l` of the joined score array is the `l`-th row's dot product with its attention column. -/
theorem v35_at (r : Fin 100000) (l : Fin 3) :
    val_main_v35 (F := Ideal) x0 x1 x2 x3 x4 x6 x7 x8 x9 x10 x11 (ix2 r l) = sc x0 x1 x2 x3 x4 x6 x7 x8 x9 x10 x11 r l := by
  unfold val_main_v35
  have h3 := cat3_at (val_main_v32 (F := Ideal) x0 x1 x2 x3 x6 x9) (val_main_v33 (F := Ideal) x0 x1 x2 x4 x7 x10)
    (val_main_v34 (F := Ideal) x0 x8 x11) Facts₀.concatenates_S100000x1_S100000x1_S100000x1_S100000x3_d1 r
  match l with
  | ⟨0, _⟩ =>
    refine h3.1.trans ?_
    rw [val_main_v32_apply]
    unfold sc Cert.RowMix.scores Cert.RowMix.score rowL
    refine Finset.sum_congr rfl fun k _ => ?_
    have el : lidx_main_v32 (ix2 r (0 : Fin 1)) k = ix2 r k := funext fun a => Fin.ext (by match a with | ⟨0, _⟩ => rfl | ⟨1, _⟩ => rfl)
    have er : ridx_main_v32 (ix2 r (0 : Fin 1)) k = ix2 k (0 : Fin 1) := funext fun a => Fin.ext (by match a with | ⟨0, _⟩ => rfl | ⟨1, _⟩ => rfl)
    rw [el, er]
  | ⟨1, _⟩ =>
    refine h3.2.1.trans ?_
    rw [val_main_v33_apply]
    unfold sc Cert.RowMix.scores Cert.RowMix.score rowH
    refine Finset.sum_congr rfl fun k _ => ?_
    have el : lidx_main_v33 (ix2 r (0 : Fin 1)) k = ix2 r k := funext fun a => Fin.ext (by match a with | ⟨0, _⟩ => rfl | ⟨1, _⟩ => rfl)
    have er : ridx_main_v33 (ix2 r (0 : Fin 1)) k = ix2 k (0 : Fin 1) := funext fun a => Fin.ext (by match a with | ⟨0, _⟩ => rfl | ⟨1, _⟩ => rfl)
    rw [el, er]
  | ⟨2, _⟩ =>
    refine h3.2.2.trans ?_
    rw [val_main_v34_apply]
    unfold sc Cert.RowMix.scores Cert.RowMix.score rowM
    refine Finset.sum_congr rfl fun k _ => ?_
    have el : lidx_main_v34 (ix2 r (0 : Fin 1)) k = ix2 r k := funext fun a => Fin.ext (by match a with | ⟨0, _⟩ => rfl | ⟨1, _⟩ => rfl)
    have er : ridx_main_v34 (ix2 r (0 : Fin 1)) k = ix2 k (0 : Fin 1) := funext fun a => Fin.ext (by match a with | ⟨0, _⟩ => rfl | ⟨1, _⟩ => rfl)
    rw [el, er]

/-- One over one plus the exponential of the negated score is the logistic of the score; the word
    `0x3F800000` is one. -/
theorem v41_at (r : Fin 100000) (l : Fin 3) :
    val_main_v41 (F := Ideal) x0 x1 x2 x3 x4 x6 x7 x8 x9 x10 x11 (ix2 r l) = Ideal.logistic (sc x0 x1 x2 x3 x4 x6 x7 x8 x9 x10 x11 r l) := by
  rw [val_main_v41_apply, val_main_v40_apply, val_main_cst_5_apply, val_main_v39_apply, val_main_v38_apply,
    val_main_cst_4_apply, val_main_v37_apply, val_main_v36_apply, v35_at]
  generalize sc x0 x1 x2 x3 x4 x6 x7 x8 x9 x10 x11 r l = s
  have one : FloatOps.ofBits (F := Ideal) .f32 0x3F800000#32 = (1 : EReal) := IdealRules.sign_bit.ideal_onePat .f32
  rw [one]
  rfl

/-- The logistic values against column `k` of the mixing matrix, divided by the word three. -/
theorem v44_at (r : Fin 100000) (k : Fin 3) :
    val_main_v44 (F := Ideal) x0 x1 x2 x3 x4 x6 x7 x8 x9 x10 x11 x12 (ix2 r k) = mx x0 x1 x2 x3 x4 x6 x7 x8 x9 x10 x11 x12 r k := by
  rw [val_main_v44_apply, val_main_v43_apply, val_main_cst_6_apply, val_main_v42_apply]
  unfold mx Cert.RowMix.mixed
  refine congrArg (fun s => Ideal.div s Cert.RowMix.three) (Finset.sum_congr rfl fun l _ => ?_)
  have el : lidx_main_v42 (ix2 r k) l = ix2 r l := funext fun a => Fin.ext (by match a with | ⟨0, _⟩ => rfl | ⟨1, _⟩ => rfl)
  have er : ridx_main_v42 (ix2 r k) l = ix2 l k := funext fun a => Fin.ext (by match a with | ⟨0, _⟩ => rfl | ⟨1, _⟩ => rfl)
  rw [el, er, v41_at]

/-- A node index with column `k` put back on the reduced axis is the pair `(r, k)`. -/
theorem lift_ix2 (h : S100000x3.Reduces [1] S100000) (r : Fin 100000) (k : Fin (S100000x3.size 1)) :
    h.lift (ix1 r) k = ix2 r (⟨k.val, k.isLt⟩ : Fin 3) := by
  funext c; apply Fin.ext
  fin_cases c <;> rfl

/-- The reduction with a maximum body over the three columns, from the word minus infinity: the fold of `max`
    over the three mixed values. -/
theorem v45_at (r : Fin 100000) :
    val_main_v45 (F := Ideal) x0 x1 x2 x3 x4 x6 x7 x8 x9 x10 x11 x12 (ix1 r)
      = (Finset.univ : Finset (Fin 3)).fold max Cert.RowMix.ninf (mx x0 x1 x2 x3 x4 x6 x7 x8 x9 x10 x11 x12 r) := by
  unfold val_main_v45
  have h : S100000x3.Reduces [1] S100000 := by decide
  rw [Host.reduce_eq_fold_single FloatOps.maximumf _ _ Facts₀.reducesTo_S100000x3_S100000_d1 h Facts₀.h_S_ (ix1 r)]
  have hf : (val_main_v44 (F := Ideal) x0 x1 x2 x3 x4 x6 x7 x8 x9 x10 x11 x12 ∘ h.lift (ix1 r)) = mx x0 x1 x2 x3 x4 x6 x7 x8 x9 x10 x11 x12 r :=
    funext fun k => by
      show val_main_v44 (F := Ideal) x0 x1 x2 x3 x4 x6 x7 x8 x9 x10 x11 x12 (h.lift (ix1 r) k) = _
      rw [lift_ix2 h r k, v44_at]
      rfl
  rw [hf]
  rfl

/-- Once more against minus infinity: the largest of the three mixed values. -/
theorem v47_at (r : Fin 100000) :
    val_main_v47 (F := Ideal) x0 x1 x2 x3 x4 x6 x7 x8 x9 x10 x11 x12 (ix1 r) = Cert.RowMix.top (mx x0 x1 x2 x3 x4 x6 x7 x8 x9 x10 x11 x12 r) := by
  rw [val_main_v47_apply, val_main_v46_apply, val_main_cst_8_apply, v45_at]
  rfl

/-- The exponential of a mixed value shifted by the largest. -/
theorem v51_at (r : Fin 100000) (k : Fin 3) :
    val_main_v51 (F := Ideal) x0 x1 x2 x3 x4 x6 x7 x8 x9 x10 x11 x12 (ix2 r k) = Cert.RowMix.expo (mx x0 x1 x2 x3 x4 x6 x7 x8 x9 x10 x11 x12 r) k := by
  rw [val_main_v51_apply, val_main_v50_apply, val_main_v49_apply, val_main_v48_apply, v44_at]
  have e : idx_main_v48 (idx_main_v49 (ix2 r k)) = ix1 r := funext fun a => Fin.ext (by match a with | ⟨0, _⟩ => rfl)
  rw [e, v47_at]
  rfl

/-- The sum of the three shifted exponentials; the initial value is the zero word. -/
theorem v52_at (r : Fin 100000) :
    val_main_v52 (F := Ideal) x0 x1 x2 x3 x4 x6 x7 x8 x9 x10 x11 x12 (ix1 r) = ∑ k : Fin 3, Cert.RowMix.expo (mx x0 x1 x2 x3 x4 x6 x7 x8 x9 x10 x11 x12 r) k := by
  rw [val_main_v52_apply, val_main_cst_9_apply]
  have z : FloatOps.ofBits (F := Ideal) .f32 0x00000000#32 = (0 : EReal) := Ideal.ofBits_zero_f32
  rw [z, zero_add]
  refine Finset.sum_congr rfl fun k _ => ?_
  have e : idx_main_v52 (ix1 r) k = ix2 r k := funext fun a => Fin.ext (by match a with | ⟨0, _⟩ => rfl | ⟨1, _⟩ => rfl)
  rw [e, v51_at]

/-- The softmax weight. -/
theorem v55_at (r : Fin 100000) (k : Fin 3) :
    val_main_v55 (F := Ideal) x0 x1 x2 x3 x4 x6 x7 x8 x9 x10 x11 x12 (ix2 r k) = Cert.RowMix.weight (mx x0 x1 x2 x3 x4 x6 x7 x8 x9 x10 x11 x12 r) k := by
  rw [val_main_v55_apply, val_main_v54_apply, val_main_v53_apply, v51_at]
  have e : idx_main_v53 (idx_main_v54 (ix2 r k)) = ix1 r := funext fun a => Fin.ext (by match a with | ⟨0, _⟩ => rfl)
  rw [e, v52_at]
  rfl

/-- Three times the weighted sum of the three rows' entries at feature `j`. -/
theorem v68_at (r : Fin 100000) (j : Fin 128) :
    val_main_v68 (F := Ideal) x0 x1 x2 x3 x4 x6 x7 x8 x9 x10 x11 x12 (ix2 r j)
      = Cert.RowMix.out (rowL x0 x1 x2 x3 x6 r) (rowH x0 x1 x2 x4 x7 r) (rowM x0 x8 r) (fun d : Fin 128 => x9 (ix2 d (0 : Fin 1))) (fun d : Fin 128 => x10 (ix2 d (0 : Fin 1))) (fun d : Fin 128 => x11 (ix2 d (0 : Fin 1))) (fun l k : Fin 3 => x12 (ix2 l k)) j := by
  rw [val_main_v68_apply, val_main_v67_apply, val_main_cst_10_apply, val_main_v66_apply, val_main_v62_apply,
    val_main_v58_apply, val_main_v57_apply, val_main_v56_apply, val_main_v61_apply, val_main_v60_apply,
    val_main_v59_apply, val_main_v65_apply, val_main_v64_apply, val_main_v63_apply]
  have e0 : idx_main_v56 (idx_main_v57 (ix2 r j)) = ix2 r (0 : Fin 3) := funext fun a => Fin.ext (by match a with | ⟨0, _⟩ => rfl | ⟨1, _⟩ => rfl)
  have e1 : idx_main_v59 (idx_main_v60 (ix2 r j)) = ix2 r (1 : Fin 3) := funext fun a => Fin.ext (by match a with | ⟨0, _⟩ => rfl | ⟨1, _⟩ => rfl)
  have e2 : idx_main_v63 (idx_main_v64 (ix2 r j)) = ix2 r (2 : Fin 3) := funext fun a => Fin.ext (by match a with | ⟨0, _⟩ => rfl | ⟨1, _⟩ => rfl)
  rw [e0, e1, e2, v55_at, v55_at, v55_at]
  rfl

/-- The tail of the program is the row mixture of the three feature arrays. -/
theorem tail_eq : val_main_v68 (F := Ideal) x0 x1 x2 x3 x4 x6 x7 x8 x9 x10 x11 x12
    = Cert.RowMix.GA (val_main_v14 (F := Ideal) x0 x1 x2 x3 x6) (val_main_v29 (F := Ideal) x0 x1 x2 x4 x7) (val_main_v31 (F := Ideal) x0 x8) x9 x10 x11 x12 := by
  funext i
  obtain ⟨r, j, rfl⟩ : ∃ (r : Fin 100000) (j : Fin 128), i = ix2 r j := ⟨i 0, i 1, eq_ix2 i⟩
  rw [Cert.RowMix.GA_ix2, v68_at]
  rfl

end Cert.ReferenceIdeal.RefValue

end
-- ==== Proof.RefBridge.lean ====
/-
  The idealized reference's result as the same whole computation of its arguments.

  Its last stage is the row mixture of three of its own stages; the first two are its two
  scatter-additions clamped at zero — each the aggregation `agg` of one of its host matrix products —
  and the third its third matrix product clamped at zero; and a host matrix product is the dense
  projection, entry by entry the sum over the contracted coordinate.
-/
import proofs.«124424_j79809082294822_1_alg».proof.Proof.Aggregate
import proofs.«124424_j79809082294822_1_alg».proof.Proof.Gen.ReferenceIdeal.Read
import proofs.«124424_j79809082294822_1_alg».proof.Proof.RefRead

set_option maxRecDepth 16384

noncomputable section

namespace Cert.ReferenceIdeal.Bridge
open Cert.ReferenceIdeal Cert.ReferenceIdeal.Read Idealize.ShloMosaic

variable (x0 : (⟨S100000x256, .f32⟩ : BufTy).Contents (Elt Ideal)) (x1 x2 : (⟨S1600000, .i32⟩ : BufTy).Contents (Elt Ideal)) (x3 x4 : (⟨S1600000, .f32⟩ : BufTy).Contents (Elt Ideal)) (x6 x7 x8 : (⟨S256x128, .f32⟩ : BufTy).Contents (Elt Ideal)) (x9 x10 x11 : (⟨S128x1, .f32⟩ : BufTy).Contents (Elt Ideal)) (x12 : (⟨S3x3, .f32⟩ : BufTy).Contents (Elt Ideal))

/-- The reference's two scatter stages are the same aggregation of its own two projections. -/
theorem stage13 : val_main_v13 (F := Ideal) x0 x1 x2 x3 x6 = Cert.KernelIdeal.Bridge.agg (val_main_v0 (F := Ideal) x0 x6) x1 x2 x3 := rfl
theorem stage28 : val_main_v28 (F := Ideal) x0 x1 x2 x4 x7 = Cert.KernelIdeal.Bridge.agg (val_main_v15 (F := Ideal) x0 x7) x1 x2 x4 := rfl

/-- The reference's result is the whole computation of its arguments. -/
theorem ref_value : val_main_v68 (F := Ideal) x0 x1 x2 x3 x4 x6 x7 x8 x9 x10 x11 x12
    = Cert.KernelIdeal.Bridge.whole x0 x1 x2 x3 x4 x6 x7 x8 x9 x10 x11 x12 := by
  rw [Cert.ReferenceIdeal.RefValue.tail_eq, Cert.ReferenceIdeal.RefValue.relu14, Cert.ReferenceIdeal.RefValue.relu29,
    Cert.ReferenceIdeal.RefValue.relu31, stage13, stage28, Cert.ReferenceIdeal.RefValue.proj0, Cert.ReferenceIdeal.RefValue.proj15,
    Cert.ReferenceIdeal.RefValue.proj30]
  rfl

end Cert.ReferenceIdeal.Bridge

end
-- ==== Proof.lean ====
/-
  The certificate: a graph convolution with a three-way attention combine, as a fused kernel against
  its plain reference, equal over the extended reals.

  Both programs compute, for 100000 nodes with 256 input features and 1.6 million weighted edges: three
  dense projections of the node features to 128 features; for the first two, a sparse aggregation over
  the edges (the projected row of an edge's source node, times the edge's weight, added into its
  destination node's row); a clamp at zero of all three; and, row by row, a mixture of the three rows with
  weights that are a softmax of a 3 × 3 mix of the logistic of the rows' scores against three attention
  columns, times three. The kernel computes the projections in a first grid of twenty blocks of 5000
  rows (rounding its operands to a shorter float format on the way in, which over the extended reals is
  the identity), leaves the aggregation to the host, and computes the clamp and the mixture in a second
  grid of twenty blocks; the reference does everything with whole-array host operations.

  The three frames: the two kernels' are the generated frame certificates, the reference's is its
  generated run with the result dropped. Nothing was rewritten in the kernel's idealization, so
  `preserves` is trivial. The equality (`algebraic`): both results are ONE function `whole` of the
  argument arrays — the kernel's by its run with the result array named and the two grids read back
  block by block through the host stretch between them, the reference's by its run read stage by stage —
  and the two memories agree on the arguments. The operations occur in the same order on both sides, so no
  law of arithmetic is used and the precondition (finite inputs) is never opened; what differs is only
  the tiling into blocks, a kernel matrix product against a host one, and a lane reduction against a host
  reduction, each read at an index as the same finite sum or fold.
-/
import proofs.«124424_j79809082294822_1_alg».proof.Defs
import proofs.«124424_j79809082294822_1_alg».proof.Proof.Gen.Kernel
import proofs.«124424_j79809082294822_1_alg».proof.Proof.Gen.Kernel.Skeleton
import proofs.«124424_j79809082294822_1_alg».proof.Proof.Gen.Kernel.Launch
import proofs.«124424_j79809082294822_1_alg».proof.Proof.Gen.Kernel.Points
import proofs.«124424_j79809082294822_1_alg».proof.Proof.Gen.Kernel.Frame
import proofs.«124424_j79809082294822_1_alg».proof.Proof.Gen.KernelIdeal
import proofs.«124424_j79809082294822_1_alg».proof.Proof.Gen.KernelIdeal.Skeleton
import proofs.«124424_j79809082294822_1_alg».proof.Proof.Gen.KernelIdeal.Launch
import proofs.«124424_j79809082294822_1_alg».proof.Proof.Gen.KernelIdeal.Points
import proofs.«124424_j79809082294822_1_alg».proof.Proof.Gen.KernelIdeal.Frame
import proofs.«124424_j79809082294822_1_alg».proof.Proof.Gen.ReferenceIdeal
import proofs.«124424_j79809082294822_1_alg».proof.Proof.Gen.Pre_finite_inputs
import proofs.«124424_j79809082294822_1_alg».proof.Proof.Gen.ReferenceIdeal.Run
import proofs.«124424_j79809082294822_1_alg».proof.Proof.Gen.ReferenceIdeal.Read
import proofs.«124424_j79809082294822_1_alg».proof.Proof.KernelBridge
import proofs.«124424_j79809082294822_1_alg».proof.Proof.RefBridge
import Idealize.ShloMosaic.Adequacy
import Idealize.ShloMosaic.Init

noncomputable section

namespace Cert.Proof.Claims

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Read over the extended reals the kernel's result array ends at the whole computation of its launched
    arguments (its run with the result named, then the two grids and the aggregation between them read
    back), and the reference's at the same function of its own arguments (its run, read stage by stage);
    the two memories agree on the arguments. -/
theorem algebraic : Cert.algebraic_KernelIdeal_ReferenceIdeal := by
  intro m ρ m' ρ' _ hagree
  refine ⟨fun c => Cert.KernelIdeal.Bridge.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Bridge.kernel_value m ρ c), (h c).2⟩)
      (Cert.KernelIdeal.RunAll.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v68_eq, (hagree c).1, (hagree c).2.1, (hagree c).2.2.1, (hagree c).2.2.2.1,
      (hagree c).2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2.1, (hagree c).2.2.2.2.2.2.2.2.2.2.2.1,
      (hagree c).2.2.2.2.2.2.2.2.2.2.2.2]
    exact Cert.ReferenceIdeal.Bridge.ref_value _ _ _ _ _ _ _ _ _ _ _ _

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_ideal, Claims.frame_reference, trivial, Claims.algebraic⟩

end Cert.Proof

end
